-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x3 : Shape := ⟨2, ![131072, 3]⟩
abbrev S3x64 : Shape := ⟨2, ![3, 64]⟩
abbrev S1x64 : Shape := ⟨2, ![1, 64]⟩
abbrev S64x128 : Shape := ⟨2, ![64, 128]⟩
abbrev S1x128 : Shape := ⟨2, ![1, 128]⟩
abbrev S128x256 : Shape := ⟨2, ![128, 256]⟩
abbrev S1x256 : Shape := ⟨2, ![1, 256]⟩
abbrev S256x512 : Shape := ⟨2, ![256, 512]⟩
abbrev S1x512 : Shape := ⟨2, ![1, 512]⟩
abbrev S512x1024 : Shape := ⟨2, ![512, 1024]⟩
abbrev S1x1024 : Shape := ⟨2, ![1, 1024]⟩
abbrev S1024x1 : Shape := ⟨2, ![1024, 1]⟩
abbrev S1x1 : Shape := ⟨2, ![1, 1]⟩
abbrev S_ : Shape := ⟨0, ![]⟩

class Facts : Prop where
  bcast_S_S131072x3 : S_.BroadcastsInDim S131072x3 (![] : Fin 0 → Fin S131072x3.rank)
  reducesTo_S131072x3_S_d0_1 : S131072x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S1x64 : S_.BroadcastsInDim S1x64 (![] : Fin 0 → Fin S1x64.rank)
  reducesTo_S1x64_S_d0_1 : S1x64.ReducesTo [0, 1] S_
  bcast_S_S64x128 : S_.BroadcastsInDim S64x128 (![] : Fin 0 → Fin S64x128.rank)
  reducesTo_S64x128_S_d0_1 : S64x128.ReducesTo [0, 1] S_
  bcast_S_S1x128 : S_.BroadcastsInDim S1x128 (![] : Fin 0 → Fin S1x128.rank)
  reducesTo_S1x128_S_d0_1 : S1x128.ReducesTo [0, 1] S_
  bcast_S_S128x256 : S_.BroadcastsInDim S128x256 (![] : Fin 0 → Fin S128x256.rank)
  reducesTo_S128x256_S_d0_1 : S128x256.ReducesTo [0, 1] S_
  bcast_S_S1x256 : S_.BroadcastsInDim S1x256 (![] : Fin 0 → Fin S1x256.rank)
  reducesTo_S1x256_S_d0_1 : S1x256.ReducesTo [0, 1] S_
  bcast_S_S256x512 : S_.BroadcastsInDim S256x512 (![] : Fin 0 → Fin S256x512.rank)
  reducesTo_S256x512_S_d0_1 : S256x512.ReducesTo [0, 1] S_
  bcast_S_S1x512 : S_.BroadcastsInDim S1x512 (![] : Fin 0 → Fin S1x512.rank)
  reducesTo_S1x512_S_d0_1 : S1x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1x1 : S_.BroadcastsInDim S1x1 (![] : Fin 0 → Fin S1x1.rank)
  reducesTo_S1x1_S_d0_1 : S1x1.ReducesTo [0, 1] S_

variable [Facts]

def fn_part3 {F : FTy → Type} [FloatOps F] (main_arg11 : FVec F S1024x1 .f32) (main_arg12 : FVec F S1x1 .f32) (main_v48 : IVec S_ 1) (main_v49 : FVec F S1x1024 .f32) (main_v50 : FVec F S1x1024 .f32) : IVec S_ 1 :=
  let main_v51 : IVec S1x1024 1 := cmpf .olt main_v49 main_v50
  let main_c_19 : IVec S_ 1 := constantI S_ 1 1#1
  let main_v52 : IVec S_ 1 := (fun x v => Host.reduce IntOp.andi x v reducesTo_S1x1024_S_d0_1 h_S_) main_v51 main_c_19
  let main_v53 : IVec S_ 1 := andi main_v48 main_v52
  let main_v54 : FVec F S1024x1 .f32 := Host.absf main_arg11
  let main_cst_20 : FVec F S_ .f32 := constant S_ .f32 0x7F800000#32
  let main_v55 : FVec F S1024x1 .f32 := broadcastInDim S1024x1 ![] bcast_S_S1024x1 main_cst_20
  let main_v56 : IVec S1024x1 1 := cmpf .olt main_v54 main_v55
  let main_c_21 : IVec S_ 1 := constantI S_ 1 1#1
  let main_v57 : IVec S_ 1 := (fun x v => Host.reduce IntOp.andi x v reducesTo_S1024x1_S_d0_1 h_S_) main_v56 main_c_21
  let main_v58 : IVec S_ 1 := andi main_v53 main_v57
  let main_v59 : FVec F S1x1 .f32 := Host.absf main_arg12
  let main_cst_22 : FVec F S_ .f32 := constant S_ .f32 0x7F800000#32
  let main_v60 : FVec F S1x1 .f32 := broadcastInDim S1x1 ![] bcast_S_S1x1 main_cst_22
  let main_v61 : IVec S1x1 1 := cmpf .olt main_v59 main_v60
  let main_c_23 : IVec S_ 1 := constantI S_ 1 1#1
  let main_v62 : IVec S_ 1 := (fun x v => Host.reduce IntOp.andi x v reducesTo_S1x1_S_d0_1 h_S_) main_v61 main_c_23
  let main_v63 : IVec S_ 1 := andi main_v58 main_v62
  main_v63

def fn_part2 {F : FTy → Type} [FloatOps F] (main_arg7 : FVec F S256x512 .f32) (main_arg8 : FVec F S1x512 .f32) (main_arg9 : FVec F S512x1024 .f32) (main_arg10 : FVec F S1x1024 .f32) (main_arg11 : FVec F S1024x1 .f32) (main_arg12 : FVec F S1x1 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S1x512 .f32 := Host.absf main_arg8
  let main_cst_14 : FVec F S_ .f32 := constant S_ .f32 0x7F800000#32
  let main_v40 : FVec F S1x512 .f32 := broadcastInDim S1x512 ![] bcast_S_S1x512 main_cst_14
  let main_v41 : IVec S1x512 1 := cmpf .olt main_v39 main_v40
  let main_c_15 : IVec S_ 1 := constantI S_ 1 1#1
  let main_v42 : IVec S_ 1 := (fun x v => Host.reduce IntOp.andi x v reducesTo_S1x512_S_d0_1 h_S_) main_v41 main_c_15
  let main_v43 : IVec S_ 1 := andi main_v38 main_v42
  let main_v44 : FVec F S512x1024 .f32 := Host.absf main_arg9
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S1x1024 .f32 := Host.absf main_arg10
  let main_cst_18 : FVec F S_ .f32 := constant S_ .f32 0x7F800000#32
  let main_v50 : FVec F S1x1024 .f32 := broadcastInDim S1x1024 ![] bcast_S_S1x1024 main_cst_18
  fn_part3 (F := F) main_arg11 main_arg12 main_v48 main_v49 main_v50

def fn_part1 {F : FTy → Type} [FloatOps F] (main_arg4 : FVec F S1x128 .f32) (main_arg5 : FVec F S128x256 .f32) (main_arg6 : FVec F S1x256 .f32) (main_arg7 : FVec F S256x512 .f32) (main_arg8 : FVec F S1x512 .f32) (main_arg9 : FVec F S512x1024 .f32) (main_arg10 : FVec F S1x1024 .f32) (main_arg11 : FVec F S1024x1 .f32) (main_arg12 : FVec F S1x1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S1x256 .f32 := Host.absf main_arg6
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S131072x3 .f32) (main_arg1 : FVec F S3x64 .f32) (main_arg2 : FVec F S1x64 .f32) (main_arg3 : FVec F S64x128 .f32) (main_arg4 : FVec F S1x128 .f32) (main_arg5 : FVec F S128x256 .f32) (main_arg6 : FVec F S1x256 .f32) (main_arg7 : FVec F S256x512 .f32) (main_arg8 : FVec F S1x512 .f32) (main_arg9 : FVec F S512x1024 .f32) (main_arg10 : FVec F S1x1024 .f32) (main_arg11 : FVec F S1024x1 .f32) (main_arg12 : FVec F S1x1 .f32) : IVec S_ 1 :=
  let main_v0 : FVec F S131072x3 .f32 := Host.absf main_arg0
  let main_cst : FVec F S_ .f32 := constant S_ .f32 0x7F800000#32
  let main_v1 : FVec F S131072x3 .f32 := broadcastInDim S131072x3 ![] bcast_S_S131072x3 main_cst
  let main_v2 : IVec S131072x3 1 := cmpf .olt main_v0 main_v1
  let main_c : IVec S_ 1 := constantI S_ 1 1#1
  let main_v3 : IVec S_ 1 := (fun x v => Host.reduce IntOp.andi x v reducesTo_S131072x3_S_d0_1 h_S_) main_v2 main_c
  let main_v4 : FVec F S3x64 .f32 := Host.absf main_arg1
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_arg9 main_arg10 main_arg11 main_arg12 main_v13 main_v16
-- ==== Kernel.lean ====
abbrev S131072x3 : Shape := ⟨2, ![131072, 3]⟩
abbrev S3x64 : Shape := ⟨2, ![3, 64]⟩
abbrev S1x64 : Shape := ⟨2, ![1, 64]⟩
abbrev S64x128 : Shape := ⟨2, ![64, 128]⟩
abbrev S1x128 : Shape := ⟨2, ![1, 128]⟩
abbrev S128x256 : Shape := ⟨2, ![128, 256]⟩
abbrev S1x256 : Shape := ⟨2, ![1, 256]⟩
abbrev S256x512 : Shape := ⟨2, ![256, 512]⟩
abbrev S1x512 : Shape := ⟨2, ![1, 512]⟩
abbrev S512x1024 : Shape := ⟨2, ![512, 1024]⟩
abbrev S1x1024 : Shape := ⟨2, ![1, 1024]⟩
abbrev S1024x1 : Shape := ⟨2, ![1024, 1]⟩
abbrev S1x1 : Shape := ⟨2, ![1, 1]⟩
abbrev S2x2 : Shape := ⟨2, ![2, 2]⟩
abbrev S_ : Shape := ⟨0, ![]⟩
abbrev S2x1x2x1 : Shape := ⟨4, ![2, 1, 2, 1]⟩
abbrev S1x64x1x128 : Shape := ⟨4, ![1, 64, 1, 128]⟩
abbrev S2x64x2x128 : Shape := ⟨4, ![2, 64, 2, 128]⟩
abbrev S4x4 : Shape := ⟨2, ![4, 4]⟩
abbrev S4x1x4x1 : Shape := ⟨4, ![4, 1, 4, 1]⟩
abbrev S4x64x4x128 : Shape := ⟨4, ![4, 64, 4, 128]⟩
abbrev S8x8 : Shape := ⟨2, ![8, 8]⟩
abbrev S8x1x8x1 : Shape := ⟨4, ![8, 1, 8, 1]⟩
abbrev S8x64x8x128 : Shape := ⟨4, ![8, 64, 8, 128]⟩
abbrev S131072x1 : Shape := ⟨2, ![131072, 1]⟩
abbrev S2048x3 : Shape := ⟨2, ![2048, 3]⟩
abbrev S2048x1 : Shape := ⟨2, ![2048, 1]⟩
abbrev S2048x64 : Shape := ⟨2, ![2048, 64]⟩
abbrev S2048x128 : Shape := ⟨2, ![2048, 128]⟩
abbrev S2048x256 : Shape := ⟨2, ![2048, 256]⟩
abbrev S2048x512 : Shape := ⟨2, ![2048, 512]⟩
abbrev S2048x1024 : Shape := ⟨2, ![2048, 1024]⟩
abbrev S2048 : Shape := ⟨1, ![2048]⟩

abbrev nBuf : Space → Nat
  | .hbm => 68
  | .vmem => 16
  | .smem => 0
  | _ => 0

abbrev bufTy : (tb : Table) → Fin (tcTables nBuf tb) → BufTy
  | .hbm, ⟨0, _⟩ => ⟨S131072x3, .f32⟩
  | .hbm, ⟨1, _⟩ => ⟨S3x64, .f32⟩
  | .hbm, ⟨2, _⟩ => ⟨S1x64, .f32⟩
  | .hbm, ⟨3, _⟩ => ⟨S64x128, .f32⟩
  | .hbm, ⟨4, _⟩ => ⟨S1x128, .f32⟩
  | .hbm, ⟨5, _⟩ => ⟨S128x256, .f32⟩
  | .hbm, ⟨6, _⟩ => ⟨S1x256, .f32⟩
  | .hbm, ⟨7, _⟩ => ⟨S256x512, .f32⟩
  | .hbm, ⟨8, _⟩ => ⟨S1x512, .f32⟩
  | .hbm, ⟨9, _⟩ => ⟨S512x1024, .f32⟩
  | .hbm, ⟨10, _⟩ => ⟨S1x1024, .f32⟩
  | .hbm, ⟨11, _⟩ => ⟨S1024x1, .f32⟩
  | .hbm, ⟨12, _⟩ => ⟨S1x1, .f32⟩
  | .hbm, ⟨13, _⟩ => ⟨S2x2, .i32⟩
  | .hbm, ⟨14, _⟩ => ⟨S2x2, .i32⟩
  | .hbm, ⟨15, _⟩ => ⟨S_, .i32⟩
  | .hbm, ⟨16, _⟩ => ⟨S2x2, .i32⟩
  | .hbm, ⟨17, _⟩ => ⟨S2x2, .i32⟩
  | .hbm, ⟨18, _⟩ => ⟨S2x2, .i1⟩
  | .hbm, ⟨19, _⟩ => ⟨S2x2, .f32⟩
  | .hbm, ⟨20, _⟩ => ⟨S_, .f32⟩
  | .hbm, ⟨21, _⟩ => ⟨S64x128, .f32⟩
  | .hbm, ⟨22, _⟩ => ⟨S2x1x2x1, .f32⟩
  | .hbm, ⟨23, _⟩ => ⟨S1x64x1x128, .f32⟩
  | .hbm, ⟨24, _⟩ => ⟨S2x64x2x128, .f32⟩
  | .hbm, ⟨25, _⟩ => ⟨S2x64x2x128, .f32⟩
  | .hbm, ⟨26, _⟩ => ⟨S2x64x2x128, .f32⟩
  | .hbm, ⟨27, _⟩ => ⟨S128x256, .f32⟩
  | .hbm, ⟨28, _⟩ => ⟨S4x4, .i32⟩
  | .hbm, ⟨29, _⟩ => ⟨S4x4, .i32⟩
  | .hbm, ⟨30, _⟩ => ⟨S_, .i32⟩
  | .hbm, ⟨31, _⟩ => ⟨S4x4, .i32⟩
  | .hbm, ⟨32, _⟩ => ⟨S4x4, .i32⟩
  | .hbm, ⟨33, _⟩ => ⟨S4x4, .i1⟩
  | .hbm, ⟨34, _⟩ => ⟨S4x4, .f32⟩
  | .hbm, ⟨35, _⟩ => ⟨S_, .f32⟩
  | .hbm, ⟨36, _⟩ => ⟨S64x128, .f32⟩
  | .hbm, ⟨37, _⟩ => ⟨S4x1x4x1, .f32⟩
  | .hbm, ⟨38, _⟩ => ⟨S1x64x1x128, .f32⟩
  | .hbm, ⟨39, _⟩ => ⟨S4x64x4x128, .f32⟩
  | .hbm, ⟨40, _⟩ => ⟨S4x64x4x128, .f32⟩
  | .hbm, ⟨41, _⟩ => ⟨S4x64x4x128, .f32⟩
  | .hbm, ⟨42, _⟩ => ⟨S256x512, .f32⟩
  | .hbm, ⟨43, _⟩ => ⟨S8x8, .i32⟩
  | .hbm, ⟨44, _⟩ => ⟨S8x8, .i32⟩
  | .hbm, ⟨45, _⟩ => ⟨S_, .i32⟩
  | .hbm, ⟨46, _⟩ => ⟨S8x8, .i32⟩
  | .hbm, ⟨47, _⟩ => ⟨S8x8, .i32⟩
  | .hbm, ⟨48, _⟩ => ⟨S8x8, .i1⟩
  | .hbm, ⟨49, _⟩ => ⟨S8x8, .f32⟩
  | .hbm, ⟨50, _⟩ => ⟨S_, .f32⟩
  | .hbm, ⟨51, _⟩ => ⟨S64x128, .f32⟩
  | .hbm, ⟨52, _⟩ => ⟨S8x1x8x1, .f32⟩
  | .hbm, ⟨53, _⟩ => ⟨S1x64x1x128, .f32⟩
  | .hbm, ⟨54, _⟩ => ⟨S8x64x8x128, .f32⟩
  | .hbm, ⟨55, _⟩ => ⟨S8x64x8x128, .f32⟩
  | .hbm, ⟨56, _⟩ => ⟨S8x64x8x128, .f32⟩
  | .hbm, ⟨57, _⟩ => ⟨S512x1024, .f32⟩
  | .hbm, ⟨58, _⟩ => ⟨S3x64, .bf16⟩
  | .hbm, ⟨59, _⟩ => ⟨S64x128, .bf16⟩
  | .hbm, ⟨60, _⟩ => ⟨S128x256, .f32⟩
  | .hbm, ⟨61, _⟩ => ⟨S128x256, .bf16⟩
  | .hbm, ⟨62, _⟩ => ⟨S256x512, .f32⟩
  | .hbm, ⟨63, _⟩ => ⟨S256x512, .bf16⟩
  | .hbm, ⟨64, _⟩ => ⟨S512x1024, .f32⟩
  | .hbm, ⟨65, _⟩ => ⟨S512x1024, .bf16⟩
  | .hbm, ⟨66, _⟩ => ⟨S1x1024, .f32⟩
  | .hbm, ⟨67, _⟩ => ⟨S131072x1, .f32⟩
  | .local _ .vmem, ⟨0, _⟩ => ⟨S2048x3, .f32⟩
  | .local _ .vmem, ⟨1, _⟩ => ⟨S2048x3, .f32⟩
  | .local _ .vmem, ⟨2, _⟩ => ⟨S3x64, .bf16⟩
  | .local _ .vmem, ⟨3, _⟩ => ⟨S1x64, .f32⟩
  | .local _ .vmem, ⟨4, _⟩ => ⟨S64x128, .bf16⟩
  | .local _ .vmem, ⟨5, _⟩ => ⟨S1x128, .f32⟩
  | .local _ .vmem, ⟨6, _⟩ => ⟨S128x256, .bf16⟩
  | .local _ .vmem, ⟨7, _⟩ => ⟨S1x256, .f32⟩
  | .local _ .vmem, ⟨8, _⟩ => ⟨S256x512, .bf16⟩
  | .local _ .vmem, ⟨9, _⟩ => ⟨S1x512, .f32⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | .local _ .vmem, ⟨13, _⟩ => ⟨S1x1, .f32⟩
  | .local _ .vmem, ⟨14, _⟩ => ⟨S2048x1, .f32⟩
  | .local _ .vmem, ⟨15, _⟩ => ⟨S2048x1, .f32⟩
  | _, _ => ⟨S131072x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_3 : Ref sig .tc := ⟨.hbm, 50, rfl⟩
abbrev main_v22 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S2x2 : S_.BroadcastsInDim S2x2 (![] : Fin 0 → Fin S2x2.rank)
  bcast_S_S64x128 : S_.BroadcastsInDim S64x128 (![] : Fin 0 → Fin S64x128.rank)
  bcast_S2x2_S2x1x2x1_0_2 : S2x2.BroadcastsInDim S2x1x2x1 (![0, 2] : Fin 2 → Fin S2x1x2x1.rank)
  bcast_S64x128_S1x64x1x128_1_3 : S64x128.BroadcastsInDim S1x64x1x128 (![1, 3] : Fin 2 → Fin S1x64x1x128.rank)
  bcast_S2x1x2x1_S2x64x2x128_0_1_2_3 : S2x1x2x1.BroadcastsInDim S2x64x2x128 (![0, 1, 2, 3] : Fin 4 → Fin S2x64x2x128.rank)
  bcast_S1x64x1x128_S2x64x2x128_0_1_2_3 : S1x64x1x128.BroadcastsInDim S2x64x2x128 (![0, 1, 2, 3] : Fin 4 → Fin S2x64x2x128.rank)
  shapeCasts_S2x64x2x128_S128x256 : S2x64x2x128.ShapeCasts S128x256
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S4x1x4x1_S4x64x4x128_0_1_2_3 : S4x1x4x1.BroadcastsInDim S4x64x4x128 (![0, 1, 2, 3] : Fin 4 → Fin S4x64x4x128.rank)
  bcast_S1x64x1x128_S4x64x4x128_0_1_2_3 : S1x64x1x128.BroadcastsInDim S4x64x4x128 (![0, 1, 2, 3] : Fin 4 → Fin S4x64x4x128.rank)
  shapeCasts_S4x64x4x128_S256x512 : S4x64x4x128.ShapeCasts S256x512
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S8x1x8x1_S8x64x8x128_0_1_2_3 : S8x1x8x1.BroadcastsInDim S8x64x8x128 (![0, 1, 2, 3] : Fin 4 → Fin S8x64x8x128.rank)
  bcast_S1x64x1x128_S8x64x8x128_0_1_2_3 : S1x64x1x128.BroadcastsInDim S8x64x8x128 (![0, 1, 2, 3] : Fin 4 → Fin S8x64x8x128.rank)
  shapeCasts_S8x64x8x128_S512x1024 : S8x64x8x128.ShapeCasts S512x1024
  bitsLt_bf16_f32 : FTy.bits .bf16 < FTy.bits .f32
  shapeCasts_S1024x1_S1x1024 : S1024x1.ShapeCasts S1x1024
  inb_S2048x3_S2048x3_0_0 : ∀ a, (![0, 0] : Fin 2 → Nat) a + S2048x3.size a ≤ S2048x3.size a
  h_S2048x3 : 0 < S2048x3.numel
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S1x64_S1x64_0_0 : ∀ a, (![0, 0] : Fin 2 → Nat) a + S1x64.size a ≤ S1x64.size a
  h_S1x64 : 0 < S1x64.numel
  broadcasts_S1x64_S2048x64 : S1x64.Broadcasts S2048x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  broadcasts_S1x128_S2048x128 : S1x128.Broadcasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  broadcasts_S1x256_S2048x256 : S1x256.Broadcasts S2048x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  broadcasts_S1x512_S2048x512 : S1x512.Broadcasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  broadcasts_S1x1024_S2048x1024 : S1x1024.Broadcasts S2048x1024
  shapeCasts_S1x1024_S1x1024 : S1x1024.ShapeCasts S1x1024
  reduces_S2048x1024_S2048 : S2048x1024.Reduces [1] S2048
  shapeCasts_S2048_S2048x1 : S2048.ShapeCasts S2048x1
  inb_S1x1_S1x1_0_0 : ∀ a, (![0, 0] : Fin 2 → Nat) a + S1x1.size a ≤ S1x1.size a
  h_S1x1 : 0 < S1x1.numel
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S2048x3_S3x64_S2048x64_1_0_0_1_n_n_wf : DotDims.WF S2048x3 S3x64 S2048x64 [1] [0] [0] [1] [] []
  dot_S2048x64_S64x128_S2048x128_1_0_0_1_n_n_wf : DotDims.WF S2048x64 S64x128 S2048x128 [1] [0] [0] [1] [] []
  dot_S2048x128_S128x256_S2048x256_1_0_0_1_n_n_wf : DotDims.WF S2048x128 S128x256 S2048x256 [1] [0] [0] [1] [] []
  dot_S2048x256_S256x512_S2048x512_1_0_0_1_n_n_wf : DotDims.WF S2048x256 S256x512 S2048x512 [1] [0] [0] [1] [] []
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S131072x3.size a
  hwx0_0 : ∀ i : grid0.Coords, EltTy.bits .f32 = 32 ∨ (Rect.block (s := S131072x3) S2048x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .bf16 = 32 ∨ (Rect.block (s := S3x64) S3x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S256x512.size a
  hwx0_7 : ∀ i : grid0.Coords, EltTy.bits .bf16 = 32 ∨ (Rect.block (s := S256x512) S256x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S512x1024.size a
  hwx0_9 : ∀ i : grid0.Coords, EltTy.bits .bf16 = 32 ∨ (Rect.block (s := S512x1024) S512x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x1.size a ≤ S131072x1.size a
  hwx0_13 : ∀ i : grid0.Coords, EltTy.bits .f32 = 32 ∨ (Rect.block (s := S131072x1) S2048x1.size (cc0_transform_13 i) (hinb0_13 i)).WholeWords (EltTy.packing .f32)

variable [Facts₀]

def dot_S2048x3_S3x64_S2048x64_1_0_0_1_n_n : DotDims S2048x3 S3x64 S2048x64 where
  lhsContracting := [1]
  rhsContracting := [0]
  lhsNonContracting := [0]
  rhsNonContracting := [1]
  lhsBatch := []
  rhsBatch := []
  wf := dot_S2048x3_S3x64_S2048x64_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S256x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31) S512x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v32) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v33) S2048x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S131072x3 : Shape := ⟨2, ![131072, 3]⟩
abbrev S3x64 : Shape := ⟨2, ![3, 64]⟩
abbrev S1x64 : Shape := ⟨2, ![1, 64]⟩
abbrev S64x128 : Shape := ⟨2, ![64, 128]⟩
abbrev S1x128 : Shape := ⟨2, ![1, 128]⟩
abbrev S128x256 : Shape := ⟨2, ![128, 256]⟩
abbrev S1x256 : Shape := ⟨2, ![1, 256]⟩
abbrev S256x512 : Shape := ⟨2, ![256, 512]⟩
abbrev S1x512 : Shape := ⟨2, ![1, 512]⟩
abbrev S512x1024 : Shape := ⟨2, ![512, 1024]⟩
abbrev S1x1024 : Shape := ⟨2, ![1, 1024]⟩
abbrev S1024x1 : Shape := ⟨2, ![1024, 1]⟩
abbrev S1x1 : Shape := ⟨2, ![1, 1]⟩
abbrev S2x2 : Shape := ⟨2, ![2, 2]⟩
abbrev S_ : Shape := ⟨0, ![]⟩
abbrev S2x1x2x1 : Shape := ⟨4, ![2, 1, 2, 1]⟩
abbrev S1x64x1x128 : Shape := ⟨4, ![1, 64, 1, 128]⟩
abbrev S2x64x2x128 : Shape := ⟨4, ![2, 64, 2, 128]⟩
abbrev S4x4 : Shape := ⟨2, ![4, 4]⟩
abbrev S4x1x4x1 : Shape := ⟨4, ![4, 1, 4, 1]⟩
abbrev S4x64x4x128 : Shape := ⟨4, ![4, 64, 4, 128]⟩
abbrev S8x8 : Shape := ⟨2, ![8, 8]⟩
abbrev S8x1x8x1 : Shape := ⟨4, ![8, 1, 8, 1]⟩
abbrev S8x64x8x128 : Shape := ⟨4, ![8, 64, 8, 128]⟩
abbrev S131072x64 : Shape := ⟨2, ![131072, 64]⟩
abbrev S131072x128 : Shape := ⟨2, ![131072, 128]⟩
abbrev S131072x256 : Shape := ⟨2, ![131072, 256]⟩
abbrev S131072x512 : Shape := ⟨2, ![131072, 512]⟩
abbrev S131072x1024 : Shape := ⟨2, ![131072, 1024]⟩
abbrev S131072x1 : Shape := ⟨2, ![131072, 1]⟩

abbrev nBuf : Space → Nat
  | .hbm => 84
  | .vmem => 0
  | .smem => 0
  | _ => 0

abbrev bufTy : (tb : Table) → Fin (tcTables nBuf tb) → BufTy
  | .hbm, ⟨0, _⟩ => ⟨S131072x3, .f32⟩
  | .hbm, ⟨1, _⟩ => ⟨S3x64, .f32⟩
  | .hbm, ⟨2, _⟩ => ⟨S1x64, .f32⟩
  | .hbm, ⟨3, _⟩ => ⟨S64x128, .f32⟩
  | .hbm, ⟨4, _⟩ => ⟨S1x128, .f32⟩
  | .hbm, ⟨5, _⟩ => ⟨S128x256, .f32⟩
  | .hbm, ⟨6, _⟩ => ⟨S1x256, .f32⟩
  | .hbm, ⟨7, _⟩ => ⟨S256x512, .f32⟩
  | .hbm, ⟨8, _⟩ => ⟨S1x512, .f32⟩
  | .hbm, ⟨9, _⟩ => ⟨S512x1024, .f32⟩
  | .hbm, ⟨10, _⟩ => ⟨S1x1024, .f32⟩
  | .hbm, ⟨11, _⟩ => ⟨S1024x1, .f32⟩
  | .hbm, ⟨12, _⟩ => ⟨S1x1, .f32⟩
  | .hbm, ⟨13, _⟩ => ⟨S2x2, .i32⟩
  | .hbm, ⟨14, _⟩ => ⟨S2x2, .i32⟩
  | .hbm, ⟨15, _⟩ => ⟨S_, .i32⟩
  | .hbm, ⟨16, _⟩ => ⟨S2x2, .i32⟩
  | .hbm, ⟨17, _⟩ => ⟨S2x2, .i32⟩
  | .hbm, ⟨18, _⟩ => ⟨S2x2, .i1⟩
  | .hbm, ⟨19, _⟩ => ⟨S2x2, .f32⟩
  | .hbm, ⟨20, _⟩ => ⟨S_, .f32⟩
  | .hbm, ⟨21, _⟩ => ⟨S64x128, .f32⟩
  | .hbm, ⟨22, _⟩ => ⟨S2x1x2x1, .f32⟩
  | .hbm, ⟨23, _⟩ => ⟨S1x64x1x128, .f32⟩
  | .hbm, ⟨24, _⟩ => ⟨S2x64x2x128, .f32⟩
  | .hbm, ⟨25, _⟩ => ⟨S2x64x2x128, .f32⟩
  | .hbm, ⟨26, _⟩ => ⟨S2x64x2x128, .f32⟩
  | .hbm, ⟨27, _⟩ => ⟨S128x256, .f32⟩
  | .hbm, ⟨28, _⟩ => ⟨S4x4, .i32⟩
  | .hbm, ⟨29, _⟩ => ⟨S4x4, .i32⟩
  | .hbm, ⟨30, _⟩ => ⟨S_, .i32⟩
  | .hbm, ⟨31, _⟩ => ⟨S4x4, .i32⟩
  | .hbm, ⟨32, _⟩ => ⟨S4x4, .i32⟩
  | .hbm, ⟨33, _⟩ => ⟨S4x4, .i1⟩
  | .hbm, ⟨34, _⟩ => ⟨S4x4, .f32⟩
  | .hbm, ⟨35, _⟩ => ⟨S_, .f32⟩
  | .hbm, ⟨36, _⟩ => ⟨S64x128, .f32⟩
  | .hbm, ⟨37, _⟩ => ⟨S4x1x4x1, .f32⟩
  | .hbm, ⟨38, _⟩ => ⟨S1x64x1x128, .f32⟩
  | .hbm, ⟨39, _⟩ => ⟨S4x64x4x128, .f32⟩
  | .hbm, ⟨40, _⟩ => ⟨S4x64x4x128, .f32⟩
  | .hbm, ⟨41, _⟩ => ⟨S4x64x4x128, .f32⟩
  | .hbm, ⟨42, _⟩ => ⟨S256x512, .f32⟩
  | .hbm, ⟨43, _⟩ => ⟨S8x8, .i32⟩
  | .hbm, ⟨44, _⟩ => ⟨S8x8, .i32⟩
  | .hbm, ⟨45, _⟩ => ⟨S_, .i32⟩
  | .hbm, ⟨46, _⟩ => ⟨S8x8, .i32⟩
  | .hbm, ⟨47, _⟩ => ⟨S8x8, .i32⟩
  | .hbm, ⟨48, _⟩ => ⟨S8x8, .i1⟩
  | .hbm, ⟨49, _⟩ => ⟨S8x8, .f32⟩
  | .hbm, ⟨50, _⟩ => ⟨S_, .f32⟩
  | .hbm, ⟨51, _⟩ => ⟨S64x128, .f32⟩
  | .hbm, ⟨52, _⟩ => ⟨S8x1x8x1, .f32⟩
  | .hbm, ⟨53, _⟩ => ⟨S1x64x1x128, .f32⟩
  | .hbm, ⟨54, _⟩ => ⟨S8x64x8x128, .f32⟩
  | .hbm, ⟨55, _⟩ => ⟨S8x64x8x128, .f32⟩
  | .hbm, ⟨56, _⟩ => ⟨S8x64x8x128, .f32⟩
  | .hbm, ⟨57, _⟩ => ⟨S512x1024, .f32⟩
  | .hbm, ⟨58, _⟩ => ⟨S131072x64, .f32⟩
  | .hbm, ⟨59, _⟩ => ⟨S131072x64, .f32⟩
  | .hbm, ⟨60, _⟩ => ⟨S131072x64, .f32⟩
  | .hbm, ⟨61, _⟩ => ⟨S131072x64, .f32⟩
  | .hbm, ⟨62, _⟩ => ⟨S131072x128, .f32⟩
  | .hbm, ⟨63, _⟩ => ⟨S131072x128, .f32⟩
  | .hbm, ⟨64, _⟩ => ⟨S131072x128, .f32⟩
  | .hbm, ⟨65, _⟩ => ⟨S131072x128, .f32⟩
  | .hbm, ⟨66, _⟩ => ⟨S128x256, .f32⟩
  | .hbm, ⟨67, _⟩ => ⟨S131072x256, .f32⟩
  | .hbm, ⟨68, _⟩ => ⟨S131072x256, .f32⟩
  | .hbm, ⟨69, _⟩ => ⟨S131072x256, .f32⟩
  | .hbm, ⟨70, _⟩ => ⟨S131072x256, .f32⟩
  | .hbm, ⟨71, _⟩ => ⟨S256x512, .f32⟩
  | .hbm, ⟨72, _⟩ => ⟨S131072x512, .f32⟩
  | .hbm, ⟨73, _⟩ => ⟨S131072x512, .f32⟩
  | .hbm, ⟨74, _⟩ => ⟨S131072x512, .f32⟩
  | .hbm, ⟨75, _⟩ => ⟨S131072x512, .f32⟩
  | .hbm, ⟨76, _⟩ => ⟨S512x1024, .f32⟩
  | .hbm, ⟨77, _⟩ => ⟨S131072x1024, .f32⟩
  | .hbm, ⟨78, _⟩ => ⟨S131072x1024, .f32⟩
  | .hbm, ⟨79, _⟩ => ⟨S131072x1024, .f32⟩
  | .hbm, ⟨80, _⟩ => ⟨S131072x1024, .f32⟩
  | .hbm, ⟨81, _⟩ => ⟨S131072x1, .f32⟩
  | .hbm, ⟨82, _⟩ => ⟨S131072x1, .f32⟩
  | .hbm, ⟨83, _⟩ => ⟨S131072x1, .f32⟩
  | _, _ => ⟨S131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_3 : Ref sig .tc := ⟨.hbm, 50, rfl⟩
abbrev main_v22 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩

abbrev nD : Nat := 1
abbrev τ : Topo := Topo.v7x

variable {F : FTy → Type} [FloatOps F]

class Facts₀ : Prop where
  bcast_S_S2x2 : S_.BroadcastsInDim S2x2 (![] : Fin 0 → Fin S2x2.rank)
  bcast_S_S64x128 : S_.BroadcastsInDim S64x128 (![] : Fin 0 → Fin S64x128.rank)
  bcast_S2x2_S2x1x2x1_0_2 : S2x2.BroadcastsInDim S2x1x2x1 (![0, 2] : Fin 2 → Fin S2x1x2x1.rank)
  bcast_S64x128_S1x64x1x128_1_3 : S64x128.BroadcastsInDim S1x64x1x128 (![1, 3] : Fin 2 → Fin S1x64x1x128.rank)
  bcast_S2x1x2x1_S2x64x2x128_0_1_2_3 : S2x1x2x1.BroadcastsInDim S2x64x2x128 (![0, 1, 2, 3] : Fin 4 → Fin S2x64x2x128.rank)
  bcast_S1x64x1x128_S2x64x2x128_0_1_2_3 : S1x64x1x128.BroadcastsInDim S2x64x2x128 (![0, 1, 2, 3] : Fin 4 → Fin S2x64x2x128.rank)
  shapeCasts_S2x64x2x128_S128x256 : S2x64x2x128.ShapeCasts S128x256
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S4x1x4x1_S4x64x4x128_0_1_2_3 : S4x1x4x1.BroadcastsInDim S4x64x4x128 (![0, 1, 2, 3] : Fin 4 → Fin S4x64x4x128.rank)
  bcast_S1x64x1x128_S4x64x4x128_0_1_2_3 : S1x64x1x128.BroadcastsInDim S4x64x4x128 (![0, 1, 2, 3] : Fin 4 → Fin S4x64x4x128.rank)
  shapeCasts_S4x64x4x128_S256x512 : S4x64x4x128.ShapeCasts S256x512
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S8x1x8x1_S8x64x8x128_0_1_2_3 : S8x1x8x1.BroadcastsInDim S8x64x8x128 (![0, 1, 2, 3] : Fin 4 → Fin S8x64x8x128.rank)
  bcast_S1x64x1x128_S8x64x8x128_0_1_2_3 : S1x64x1x128.BroadcastsInDim S8x64x8x128 (![0, 1, 2, 3] : Fin 4 → Fin S8x64x8x128.rank)
  shapeCasts_S8x64x8x128_S512x1024 : S8x64x8x128.ShapeCasts S512x1024
  bcast_S1x64_S131072x64_0_1 : S1x64.BroadcastsInDim S131072x64 (![0, 1] : Fin 2 → Fin S131072x64.rank)
  bcast_S1x128_S131072x128_0_1 : S1x128.BroadcastsInDim S131072x128 (![0, 1] : Fin 2 → Fin S131072x128.rank)
  bcast_S1x256_S131072x256_0_1 : S1x256.BroadcastsInDim S131072x256 (![0, 1] : Fin 2 → Fin S131072x256.rank)
  bcast_S1x512_S131072x512_0_1 : S1x512.BroadcastsInDim S131072x512 (![0, 1] : Fin 2 → Fin S131072x512.rank)
  bcast_S1x1024_S131072x1024_0_1 : S1x1024.BroadcastsInDim S131072x1024 (![0, 1] : Fin 2 → Fin S131072x1024.rank)
  bcast_S1x1_S131072x1_0_1 : S1x1.BroadcastsInDim S131072x1 (![0, 1] : Fin 2 → Fin S131072x1.rank)
  dot_S131072x3_S3x64_S131072x64_1_0_0_1_n_n_wf : DotDims.WF S131072x3 S3x64 S131072x64 [1] [0] [0] [1] [] []
  dot_S131072x64_S64x128_S131072x128_1_0_0_1_n_n_wf : DotDims.WF S131072x64 S64x128 S131072x128 [1] [0] [0] [1] [] []
  dot_S131072x128_S128x256_S131072x256_1_0_0_1_n_n_wf : DotDims.WF S131072x128 S128x256 S131072x256 [1] [0] [0] [1] [] []
  dot_S131072x256_S256x512_S131072x512_1_0_0_1_n_n_wf : DotDims.WF S131072x256 S256x512 S131072x512 [1] [0] [0] [1] [] []
  dot_S131072x512_S512x1024_S131072x1024_1_0_0_1_n_n_wf : DotDims.WF S131072x512 S512x1024 S131072x1024 [1] [0] [0] [1] [] []
  dot_S131072x1024_S1024x1_S131072x1_1_0_0_1_n_n_wf : DotDims.WF S131072x1024 S1024x1 S131072x1 [1] [0] [0] [1] [] []

variable [Facts₀]

def dot_S131072x3_S3x64_S131072x64_1_0_0_1_n_n : DotDims S131072x3 S3x64 S131072x64 where
  lhsContracting := [1]
  rhsContracting := [0]
  lhsNonContracting := [0]
  rhsNonContracting := [1]
  lhsBatch := []
  rhsBatch := []
  wf := dot_S131072x3_S3x64_S131072x64_1_0_0_1_n_n_wf
def dot_S131072x64_S64x128_S131072x128_1_0_0_1_n_n : DotDims S131072x64 S64x128 S131072x128 where
  lhsContracting := [1]
  rhsContracting := [0]
  lhsNonContracting := [0]
  rhsNonContracting := [1]
  lhsBatch := []
  rhsBatch := []
  wf := dot_S131072x64_S64x128_S131072x128_1_0_0_1_n_n_wf
def dot_S131072x128_S128x256_S131072x256_1_0_0_1_n_n : DotDims S131072x128 S128x256 S131072x256 where
  lhsContracting := [1]
  rhsContracting := [0]
  lhsNonContracting := [0]
  rhsNonContracting := [1]
  lhsBatch := []
  rhsBatch := []
  wf := dot_S131072x128_S128x256_S131072x256_1_0_0_1_n_n_wf
def dot_S131072x256_S256x512_S131072x512_1_0_0_1_n_n : DotDims S131072x256 S256x512 S131072x512 where
  lhsContracting := [1]
  rhsContracting := [0]
  lhsNonContracting := [0]
  rhsNonContracting := [1]
  lhsBatch := []
  rhsBatch := []
  wf := dot_S131072x256_S256x512_S131072x512_1_0_0_1_n_n_wf
def dot_S131072x512_S512x1024_S131072x1024_1_0_0_1_n_n : DotDims S131072x512 S512x1024 S131072x1024 where
  lhsContracting := [1]
  rhsContracting := [0]
  lhsNonContracting := [0]
  rhsNonContracting := [1]
  lhsBatch := []
  rhsBatch := []
  wf := dot_S131072x512_S512x1024_S131072x1024_1_0_0_1_n_n_wf
def dot_S131072x1024_S1024x1_S131072x1_1_0_0_1_n_n : DotDims S131072x1024 S1024x1 S131072x1 where
  lhsContracting := [1]
  rhsContracting := [0]
  lhsNonContracting := [0]
  rhsNonContracting := [1]
  lhsBatch := []
  rhsBatch := []
  wf := dot_S131072x1024_S1024x1_S131072x1_1_0_0_1_n_n_wf

class Facts : Prop extends Facts₀ where

variable [Facts]
-- ==== Proof.Windows.lean ====
/-
  The arrays the kernel's region finds, for the windows that do not stage an argument as launched.

  Before the region the program narrows the first two weight arrays to a shorter float format, multiplies the third,
  fourth and fifth weight arrays entry by entry by a fixed block-diagonal mask of zeros and ones and narrows the products,
  and re-lays the read-out column `[1024, 1]` as a row `[1, 1024]`. The mask is built by the very operations the
  reference builds it with (an identity matrix from two index grids, spread over blocks of ones), so each masked weight
  array is the reference's masked array, narrowed; nothing here looks inside the mask.
-/
import Idealize.ShloMosaic.Lib.StableHlo.Run
import proofs.«100286_j70789650973458_2_alg».proof.Proof.Gen.KernelIdeal.Frame
import proofs.«100286_j70789650973458_2_alg».proof.Proof.Gen.ReferenceIdeal.Read

noncomputable section

namespace Cert.Mlp.Win

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ)

/-- The first layer's weights as the region finds them: the argument, narrowed. -/
theorem V_w0 (c : Dev nD) :
    @Eq (S3x64.Idx → Ideal .bf16) (V m c main_v24)
      (truncf (F := Ideal) .bf16 (m ((c : Thread nD τ).loc main_arg1) : (⟨S3x64, .f32⟩ : BufTy).Contents (Elt Ideal)) bitsLt_bf16_f32) := by
  dsimp only [V]
  simp only [hostOps0, hostOps0_1, hostOps0_2, hostOps0_3, hostOps0_4, hostOps0_5, hostOps0_6, List.flatten_cons, List.flatten_nil, List.append_nil, List.cons_append, List.nil_append]
  after_results_simp

/-- The second layer's weights as the region finds them: the argument, narrowed. -/
theorem V_w1 (c : Dev nD) :
    @Eq (S64x128.Idx → Ideal .bf16) (V m c main_v25)
      (truncf (F := Ideal) .bf16 (m ((c : Thread nD τ).loc main_arg3) : (⟨S64x128, .f32⟩ : BufTy).Contents (Elt Ideal)) bitsLt_bf16_f32) := by
  dsimp only [V]
  simp only [hostOps0, hostOps0_1, hostOps0_2, hostOps0_3, hostOps0_4, hostOps0_5, hostOps0_6, List.flatten_cons, List.flatten_nil, List.append_nil, List.cons_append, List.nil_append]
  after_results_simp

/-- The third layer's weights as the region finds them: the reference's masked weights of the argument, narrowed. -/
theorem V_w2 (c : Dev nD) :
    @Eq (S128x256.Idx → Ideal .bf16) (V m c main_v27)
      (truncf (F := Ideal) .bf16 (Cert.ReferenceIdeal.Read.val_main_v32 (F := Ideal) (m ((c : Thread nD τ).loc main_arg5))) bitsLt_bf16_f32) := by
  dsimp only [V]
  simp only [hostOps0, hostOps0_1, hostOps0_2, hostOps0_3, hostOps0_4, hostOps0_5, hostOps0_6, List.flatten_cons, List.flatten_nil, List.append_nil, List.cons_append, List.nil_append]
  after_results_simp
  rfl

/-- The fourth layer's weights as the region finds them. -/
theorem V_w3 (c : Dev nD) :
    @Eq (S256x512.Idx → Ideal .bf16) (V m c main_v29)
      (truncf (F := Ideal) .bf16 (Cert.ReferenceIdeal.Read.val_main_v37 (F := Ideal) (m ((c : Thread nD τ).loc main_arg7))) bitsLt_bf16_f32) := by
  dsimp only [V]
  simp only [hostOps0, hostOps0_1, hostOps0_2, hostOps0_3, hostOps0_4, hostOps0_5, hostOps0_6, List.flatten_cons, List.flatten_nil, List.append_nil, List.cons_append, List.nil_append]
  after_results_simp
  rfl

/-- The fifth layer's weights as the region finds them. -/
theorem V_w4 (c : Dev nD) :
    @Eq (S512x1024.Idx → Ideal .bf16) (V m c main_v31)
      (truncf (F := Ideal) .bf16 (Cert.ReferenceIdeal.Read.val_main_v42 (F := Ideal) (m ((c : Thread nD τ).loc main_arg9))) bitsLt_bf16_f32) := by
  dsimp only [V]
  simp only [hostOps0, hostOps0_1, hostOps0_2, hostOps0_3, hostOps0_4, hostOps0_5, hostOps0_6, List.flatten_cons, List.flatten_nil, List.append_nil, List.cons_append, List.nil_append]
  after_results_simp
  rfl

/-- The read-out weights as the region finds them: the argument column re-laid as a row. -/
theorem V_w5 (c : Dev nD) :
    (V m c main_v32 : S1x1024.Idx → Ideal .f32)
      = shapeCast S1x1024 (m ((c : Thread nD τ).loc main_arg11) : (⟨S1024x1, .f32⟩ : BufTy).Contents (Elt Ideal)) shapeCasts_S1024x1_S1x1024 := by
  dsimp only [V]
  simp only [hostOps0, hostOps0_1, hostOps0_2, hostOps0_3, hostOps0_4, hostOps0_5, hostOps0_6, List.flatten_cons, List.flatten_nil, List.append_nil, List.cons_append, List.nil_append]
  after_results_simp
  rfl

end Cert.Mlp.Win

end
-- ==== Proof.Spec.lean ====
/-
  The function both programs compute, one row at a time.

  The network is five dense layers with a sine activation followed by a linear read-out. For one input row
  `x : Fin 3 → EReal`, a layer with weights `W` and bias `b` sends the row `h` of the previous layer to
  `c ↦ sin (∑ k, h k * W k c + b c)`; the read-out is `∑ k, h k * w k + β`. Every sum is a finite sum on the extended
  reals, where addition is commutative and associative, so the order in which a program adds the products does not
  matter. Nothing else of the arithmetic of the extended reals is used: the two programs multiply the same factors in the
  same order and add the same bias on the same side.
-/
import Idealize.ShloMosaic.PureOps.Ideal

noncomputable section

open scoped BigOperators

namespace Cert.Mlp

open Idealize.ShloMosaic

/-- One dense layer with sine activation on one row: `c ↦ sin (∑ k, h k * W k c + b c)`. -/
def layer {K M : Nat} (h : Fin K → EReal) (W : Fin K → Fin M → EReal) (b : Fin M → EReal) : Fin M → EReal :=
  fun c => Ideal.sin ((∑ k : Fin K, h k * W k c) + b c)

/-- The linear read-out of one row: `∑ k, h k * w k + β`. -/
def readout {K : Nat} (h : Fin K → EReal) (w : Fin K → EReal) (β : EReal) : EReal :=
  (∑ k : Fin K, h k * w k) + β

/-- The whole network on one row: five sine layers of widths 64, 128, 256, 512, 1024, then the read-out. -/
def rowOut (x : Fin 3 → EReal)
    (W0 : Fin 3 → Fin 64 → EReal) (b0 : Fin 64 → EReal)
    (W1 : Fin 64 → Fin 128 → EReal) (b1 : Fin 128 → EReal)
    (W2 : Fin 128 → Fin 256 → EReal) (b2 : Fin 256 → EReal)
    (W3 : Fin 256 → Fin 512 → EReal) (b3 : Fin 512 → EReal)
    (W4 : Fin 512 → Fin 1024 → EReal) (b4 : Fin 1024 → EReal)
    (w5 : Fin 1024 → EReal) (β : EReal) : EReal :=
  readout (layer (layer (layer (layer (layer x W0 b0) W1 b1) W2 b2) W3 b3) W4 b4) w5 β

end Cert.Mlp

end
-- ==== Proof.LibPlainDot.lean ====
/-
  A plain matrix product read at an index, at the ideal values.

  The dimension numbers `DotDims.plain M K N` contract the second axis of an `M × K` left operand with the first axis of a
  `K × N` right operand. At the ideal instance a `tpu.matmul` with these numbers into the zero accumulator, and the
  host's `dot_general` with the same numbers, are both — at the result index `(p, q)` — the finite sum over `k : Fin K`
  of `lhs (p, k) * rhs (k, q)` on the extended reals. Nothing is assumed of `M`, `K`, `N` or of the operands' formats.

  The proof names the two operand indices coordinate by coordinate (`lhsIdx_plain`, `rhsIdx_plain`: a batch-free,
  single-contraction record sends `(p, q)` and `k` to `(p, k)` and `(k, q)`) and re-indexes the one-axis contraction shape
  by its coordinate.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable (M K N : Nat)

/-- The one-axis contraction shape of a plain product, identified with `Fin K`. -/
abbrev contrFin : (DotDims.plain M K N).contr.Idx ≃ Fin K := contrEquiv1 (DotDims.plain M K N) K rfl rfl

/-- The left operand's index at result index `(p, q)` and contraction coordinate `k` is `(p, k)`. -/
theorem lhsIdx_plain (p : Fin M) (q : Fin N) (k : Fin K) :
    (DotDims.plain M K N).lhsIdx (ix2 p q) ((contrFin M K N).symm k) = ix2 p k := by
  funext a
  apply Fin.ext
  match a with
  | ⟨0, _⟩ =>
    show ((DotDims.plain M K N).lhsIdx (ix2 p q) ((contrFin M K N).symm k) (0 : Fin 2)).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    show ((DotDims.plain M K N).lhsIdx (ix2 p q) ((contrFin M K N).symm k) (1 : Fin 2)).val = k.val
    exact ((DotDims.plain M K N).lhsIdx_val_of_single rfl _ _).trans
      (contrEquiv1_symm_val (DotDims.plain M K N) K rfl rfl k)

/-- The right operand's index at result index `(p, q)` and contraction coordinate `k` is `(k, q)`. -/
theorem rhsIdx_plain (p : Fin M) (q : Fin N) (k : Fin K) :
    (DotDims.plain M K N).rhsIdx (ix2 p q) ((contrFin M K N).symm k) = ix2 k q := by
  funext a
  apply Fin.ext
  match a with
  | ⟨0, _⟩ =>
    show ((DotDims.plain M K N).rhsIdx (ix2 p q) ((contrFin M K N).symm k) (0 : Fin 2)).val = k.val
    exact ((DotDims.plain M K N).rhsIdx_val_of_single rfl _ _).trans
      (contrEquiv1_symm_val (DotDims.plain M K N) K rfl rfl k)
  | ⟨1, _⟩ =>
    show ((DotDims.plain M K N).rhsIdx (ix2 p q) ((contrFin M K N).symm k) (1 : Fin 2)).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)`, over `Fin K`. -/
theorem sum_plain (lhs : (⟨2, ![M, K]⟩ : Shape).Idx → EReal) (rhs : (⟨2, ![K, N]⟩ : Shape).Idx → EReal) (p : Fin M) (q : Fin N) :
    (∑ c : (DotDims.plain M K N).contr.Idx,
        lhs ((DotDims.plain M K N).lhsIdx (ix2 p q) c) * rhs ((DotDims.plain M K N).rhsIdx (ix2 p q) c))
      = ∑ k : Fin K, lhs (ix2 p k) * rhs (ix2 k q) := by
  rw [← Equiv.sum_comp (contrFin M K N).symm]
  exact Finset.sum_congr rfl fun k _ => by rw [lhsIdx_plain, rhsIdx_plain]

/-- A `tpu.matmul` with plain dimension numbers into the zero accumulator, at the ideal values, read at `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain M K N lhs rhs p q)

/-- The host's `dot_general` with plain dimension numbers, at the ideal values, read at `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain M K N lhs rhs p q)

end Cert.Lib.PlainDot

end
-- ==== Proof.LibColumnLayout.lean ====
/-
  Column forms of two layout operations, read at an index built from coordinates.

  A sum over the last axis taken with the reduced axis kept (a column of row sums) meets two layout operations the
  library reads only in their row forms: the cast of a vector `[a]` to a column `[a, 1]`, and the broadcast of a column
  `[a, 1]` across `b` columns to `[a, b]`. Both read, at `(i, ·)`, the operand's entry of row `i`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- A vector `[a]` cast to a column `[a, 1]` reads, at `(i, u)`, the operand at `i`, whatever the unit coordinate `u`:
    both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.LibIndexLayout.lean ====
/-
  Three small facts about indices of rank-2 arrays, stated over indices built from coordinates.

  A rank-2 index is determined by its two coordinates. A column `[a, 1]` re-laid as a row `[1, a]` keeps its entries in
  order: entry `(0, k)` of the row is entry `(k, 0)` of the column, both being the `k`-th in row-major order. And when an
  `[M, K]` array is summed along its rows into a vector `[M]`, the entry that the sum at `p` reads for the lane `k` is
  `(p, k)`.
-/
import Idealize.ShloMosaic.Lib.Pipeline.Value
import Idealize.ShloMosaic.Lib.ValueIdx
import Idealize.ShloMosaic.PureOps.Reduce

namespace Cert.Lib.IndexLayout

open Idealize.ShloMosaic Idealize.ShloMosaic.ValueIdx

/-- A rank-2 index is the pair of its coordinates. -/
theorem ix2_ext {n0 n1 : Nat} (j : (⟨2, ![n0, n1]⟩ : Shape).Idx) (a : Fin n0) (b : Fin n1) (h0 : j 0 = a) (h1 : j 1 = b) :
    j = ix2 a b := by
  funext d
  match d with
  | ⟨0, _⟩ => exact h0
  | ⟨1, _⟩ => exact h1

/-- A column `[a, 1]` re-laid as a row `[1, a]` reads, at `(0, k)`, the column's entry `(k, 0)`. -/
theorem shapeCast_a1_1a_apply {α : Type} {a : ℕ} (x : (⟨2, ![a, 1]⟩ : Shape).Idx → α)
    (h : (⟨2, ![a, 1]⟩ : Shape).ShapeCasts ⟨2, ![1, a]⟩) (k : Fin a) :
    shapeCast ⟨2, ![1, a]⟩ x h (ix2 (0 : Fin 1) k) = x (ix2 k (0 : Fin 1)) :=
  shapeCast_apply x h _ _ (by
    rw [Shape.rowMajor_val_two, Shape.rowMajor_val_two]
    show k.val * 1 + 0 = 0 * a + k.val
    omega)

/-- Summing an `[M, K]` array along its rows: the source index over the row `p` with the lane `k` inserted is `(p, k)`. -/
theorem lift_row (M K : Nat) (hred : (⟨2, ![M, K]⟩ : Shape).Reduces [1] ⟨1, ![M]⟩) (p : Fin M) (k : Fin K) :
    hred.lift (ix1 p) k = ix2 p k := by
  funext c
  apply Fin.ext
  match c with
  | ⟨0, _⟩ => rfl
  | ⟨1, _⟩ => rfl

end Cert.Lib.IndexLayout
-- ==== Proof.BlockLayer.lean ====
/-
  A dense layer and the read-out as a kernel computes them on a block of rows, read at one entry.

  On a block of `M` rows the layer is a matrix product into the zero accumulator, plus the bias row repeated down the
  block, through the sine. At the entry `(p, c)` the product is the finite sum over `k` of the block's entry `(p, k)`
  times the weight `(k, c)`, and the repeated bias is the bias row's entry `c`: the layer of the specification applied
  to row `p` of the block. The read-out multiplies the last layer, entry by entry, by the read-out weights laid out as a
  row and repeated down the block, sums each row over its 1024 lanes, stands the sums up as a column and adds the one
  bias: at `(p, ·)` it is the read-out of the specification on row `p`.
-/
import Idealize.ShloMosaic.Lib.ValueIdx
import Idealize.ShloMosaic.Lib.ValueLayout
import Idealize.ShloMosaic.PureOps.Ideal.Laws
import proofs.«100286_j70789650973458_2_alg».proof.Proof.Spec
import proofs.«100286_j70789650973458_2_alg».proof.Proof.LibPlainDot
import proofs.«100286_j70789650973458_2_alg».proof.Proof.LibColumnLayout
import proofs.«100286_j70789650973458_2_alg».proof.Proof.LibIndexLayout

noncomputable section

open scoped BigOperators

namespace Cert.Mlp

open Idealize.ShloMosaic Idealize.ShloMosaic.ValueIdx Cert.Lib.IndexLayout

/-- A sine layer on a block of `M` rows, at entry `(p, c)`: the specification's layer on row `p` of the block
    (`hrow` names that row), with the weights and the bias row read entry by entry. -/
theorem block_layer (M K N : Nat) {φ₁ φ₂ : FTy}
    (h : FVec Ideal ⟨2, ![M, K]⟩ φ₁) (W : FVec Ideal ⟨2, ![K, N]⟩ φ₂)
    (hc : (⟨2, ![K, N]⟩ : Shape).ShapeCasts ⟨2, ![K, N]⟩)
    (b : FVec Ideal ⟨2, ![1, N]⟩ .f32) (hb : (⟨2, ![1, N]⟩ : Shape).Broadcasts ⟨2, ![M, N]⟩)
    (p : Fin M) (c : Fin N) (hrow : Fin K → EReal) (hh : ∀ k, h (ix2 p k) = hrow k) :
    sin (addf (matmul (DotDims.plain M K N) none h (shapeCast ⟨2, ![K, N]⟩ W hc)
        (constant (F := Ideal) ⟨2, ![M, N]⟩ .f32 0x00000000#32)) (broadcastTo ⟨2, ![M, N]⟩ b hb)) (ix2 p c)
      = layer hrow (fun k c => W (ix2 k c)) (fun c => b (ix2 (0 : Fin 1) c)) c := by
  show Ideal.sin (FloatOps.matmul (DotDims.plain M K N) none h (shapeCast ⟨2, ![K, N]⟩ W hc)
      (constant (F := Ideal) ⟨2, ![M, N]⟩ .f32 0x00000000#32) (ix2 p c) + broadcastTo ⟨2, ![M, N]⟩ b hb (ix2 p c)) = _
  rw [Cert.Lib.PlainDot.matmul_zero_apply, shapeCast_self, broadcastTo_1b_ab_apply]
  unfold layer
  simp only [hh]

/-- The same layer narrowed to a shorter float format before the next product: on the extended reals the narrowing
    changes no value. -/
theorem block_layer_narrow (M K N : Nat) {φ₁ φ₂ : FTy}
    (h : FVec Ideal ⟨2, ![M, K]⟩ φ₁) (W : FVec Ideal ⟨2, ![K, N]⟩ φ₂)
    (hc : (⟨2, ![K, N]⟩ : Shape).ShapeCasts ⟨2, ![K, N]⟩)
    (b : FVec Ideal ⟨2, ![1, N]⟩ .f32) (hb : (⟨2, ![1, N]⟩ : Shape).Broadcasts ⟨2, ![M, N]⟩)
    (ψ : FTy) (hlt : ψ.bits < FTy.f32.bits)
    (p : Fin M) (c : Fin N) (hrow : Fin K → EReal) (hh : ∀ k, h (ix2 p k) = hrow k) :
    truncf ψ (sin (addf (matmul (DotDims.plain M K N) none h (shapeCast ⟨2, ![K, N]⟩ W hc)
        (constant (F := Ideal) ⟨2, ![M, N]⟩ .f32 0x00000000#32)) (broadcastTo ⟨2, ![M, N]⟩ b hb))) hlt (ix2 p c)
      = layer hrow (fun k c => W (ix2 k c)) (fun c => b (ix2 (0 : Fin 1) c)) c :=
  block_layer M K N h W hc b hb p c hrow hh

/-- The read-out on a block of `M` rows, at entry `(p, ·)`: the specification's read-out on row `p` of the last
    layer (`arow` names that row), the weights read along their row and the bias at its one entry. -/
theorem block_readout (M K : Nat) (a : FVec Ideal ⟨2, ![M, K]⟩ .f32) (w : FVec Ideal ⟨2, ![1, K]⟩ .f32)
    (hcw : (⟨2, ![1, K]⟩ : Shape).ShapeCasts ⟨2, ![1, K]⟩) (hbw : (⟨2, ![1, K]⟩ : Shape).Broadcasts ⟨2, ![M, K]⟩)
    (hred : (⟨2, ![M, K]⟩ : Shape).Reduces [1] ⟨1, ![M]⟩) (hφ : FKind.Formats .f32)
    (hacc : (0x00000000#32 : BitVec (FTy.bits .f32)) = FKind.add.neutral .f32 hφ)
    (hcs : (⟨1, ![M]⟩ : Shape).ShapeCasts ⟨2, ![M, 1]⟩)
    (β : FVec Ideal ⟨2, ![1, 1]⟩ .f32) (hbβ : (⟨2, ![1, 1]⟩ : Shape).Broadcasts ⟨2, ![M, 1]⟩)
    (p : Fin M) (arow : Fin K → EReal) (ha : ∀ k, a (ix2 p k) = arow k) :
    addf (shapeCast ⟨2, ![M, 1]⟩ (multiReduction .add [1] ⟨1, ![M]⟩
          (mulf a (broadcastTo ⟨2, ![M, K]⟩ (shapeCast ⟨2, ![1, K]⟩ w hcw) hbw)) 0x00000000#32 hred hφ hacc) hcs)
        (broadcastTo ⟨2, ![M, 1]⟩ β hbβ) (ix2 p (0 : Fin 1))
      = readout arow (fun k => w (ix2 (0 : Fin 1) k)) (β (ix2 (0 : Fin 1) (0 : Fin 1))) := by
  show shapeCast ⟨2, ![M, 1]⟩ (multiReduction .add [1] ⟨1, ![M]⟩
        (mulf a (broadcastTo ⟨2, ![M, K]⟩ (shapeCast ⟨2, ![1, K]⟩ w hcw) hbw)) 0x00000000#32 hred hφ hacc) hcs (ix2 p (0 : Fin 1))
      + broadcastTo ⟨2, ![M, 1]⟩ β hbβ (ix2 p (0 : Fin 1)) = _
  rw [ColumnLayout.shapeCast_a_a1_apply, broadcastTo_1b_ab_apply, Ideal.multiReduction_add_single, shapeCast_self]
  unfold readout
  refine congrArg (· + β (ix2 (0 : Fin 1) (0 : Fin 1))) ?_
  show ∑ k : Fin K, (mulf a (broadcastTo ⟨2, ![M, K]⟩ w hbw)) (hred.lift (ix1 p) k) = _
  refine Finset.sum_congr rfl fun k _ => ?_
  rw [lift_row M K hred p k]
  show a (ix2 p k) * broadcastTo ⟨2, ![M, K]⟩ w hbw (ix2 p k) = _
  rw [broadcastTo_1b_ab_apply, ha]

end Cert.Mlp

end
-- ==== Proof.KernelRow.lean ====
/-
  The kernel's stored value, read one row at a time.

  At one grid point the kernel loads a block of 2048 input rows and the whole weight and bias arrays, runs the five sine
  layers on the block (each a matrix product into the zero accumulator, the bias row repeated down the block, the sine;
  the narrowing of a layer's result before the next product changes no value on the extended reals), multiplies the last
  layer by the read-out weights laid out as a row, sums each row over its lanes, adds the read-out bias and stores the
  resulting column. Row `p` of every layer depends only on row `p` of the layer before, so the stored column's entry
  `(p, ·)` is the specification's network on row `p` of the loaded block.
-/
import proofs.«100286_j70789650973458_2_alg».proof.Proof.Gen.KernelIdeal.Skeleton
import proofs.«100286_j70789650973458_2_alg».proof.Proof.BlockLayer

noncomputable section

open scoped BigOperators

namespace Cert.Mlp.Kernel

open Cert.KernelIdeal Cert.KernelIdeal.Gen Idealize.ShloMosaic Idealize.ShloMosaic.ValueIdx

variable (x0 : Vec Ideal S2048x3 .f32) (x1 : Vec Ideal S3x64 .bf16) (x2 : Vec Ideal S1x64 .f32)
  (x3 : Vec Ideal S64x128 .bf16) (x4 : Vec Ideal S1x128 .f32) (x5 : Vec Ideal S128x256 .bf16)
  (x6 : Vec Ideal S1x256 .f32) (x7 : Vec Ideal S256x512 .bf16) (x8 : Vec Ideal S1x512 .f32)
  (x9 : Vec Ideal S512x1024 .bf16) (x10 : Vec Ideal S1x1024 .f32) (x11 : Vec Ideal S1x1024 .f32)
  (x12 : Vec Ideal S1x1 .f32)

/-- The fourth layer on the block, at entry `(p, c)`: four layers of the specification on row `p` of the loaded
    input block. -/
theorem hidden (p : Fin 2048) (c : Fin 512) :
    k0_pay2 (F := Ideal) x0 x1 x2 x3 x4 x5 x6 x7 x8 (ix2 p c)
      = layer (layer (layer (layer (fun j => x0 (ix2 p j))
            (fun k c => x1 (ix2 k c)) (fun c => x2 (ix2 (0 : Fin 1) c)))
            (fun k c => x3 (ix2 k c)) (fun c => x4 (ix2 (0 : Fin 1) c)))
            (fun k c => x5 (ix2 k c)) (fun c => x6 (ix2 (0 : Fin 1) c)))
            (fun k c => x7 (ix2 k c)) (fun c => x8 (ix2 (0 : Fin 1) c)) c := by
  unfold k0_pay2
  refine block_layer_narrow 2048 256 512 _ _ _ _ _ _ _ p c _ fun k3 => ?_
  refine block_layer_narrow 2048 128 256 _ _ _ _ _ _ _ p k3 _ fun k2 => ?_
  refine block_layer_narrow 2048 64 128 _ _ _ _ _ _ _ p k2 _ fun k1 => ?_
  refine block_layer_narrow 2048 3 64 _ _ _ _ _ _ _ p k1 _ fun k0 => ?_
  rfl

/-- The stored column at entry `(p, ·)`, from the fourth layer's block `v` (whose row `p` is `h`): the fifth layer and
    the read-out of the specification. -/
theorem stored (v : FVec Ideal S2048x512 .bf16) (p : Fin 2048) (z : Fin 1) (h : Fin 512 → EReal)
    (hv : ∀ k, v (ix2 p k) = h k) :
    k0_pay1 (F := Ideal) v x9 x10 x11 x12 (ix2 p z)
      = readout (layer h (fun k c => x9 (ix2 k c)) (fun c => x10 (ix2 (0 : Fin 1) c)))
          (fun k => x11 (ix2 (0 : Fin 1) k)) (x12 (ix2 (0 : Fin 1) (0 : Fin 1))) := by
  obtain rfl : z = 0 := Subsingleton.elim _ _
  unfold k0_pay1
  refine block_readout 2048 1024 _ _ _ _ _ _ _ _ _ _ p _ fun k4 => ?_
  exact block_layer 2048 512 1024 _ _ _ _ _ p k4 _ hv

/-- THE KERNEL'S STORED COLUMN at entry `(p, ·)` is the network of the specification on row `p` of the loaded input
    block, with the loaded weight and bias blocks read entry by entry. -/
theorem row (p : Fin 2048) (z : Fin 1) :
    k0_pay1 (F := Ideal) (k0_pay2 (F := Ideal) x0 x1 x2 x3 x4 x5 x6 x7 x8) x9 x10 x11 x12 (ix2 p z)
      = rowOut (fun j => x0 (ix2 p j))
          (fun k c => x1 (ix2 k c)) (fun c => x2 (ix2 (0 : Fin 1) c))
          (fun k c => x3 (ix2 k c)) (fun c => x4 (ix2 (0 : Fin 1) c))
          (fun k c => x5 (ix2 k c)) (fun c => x6 (ix2 (0 : Fin 1) c))
          (fun k c => x7 (ix2 k c)) (fun c => x8 (ix2 (0 : Fin 1) c))
          (fun k c => x9 (ix2 k c)) (fun c => x10 (ix2 (0 : Fin 1) c))
          (fun k => x11 (ix2 (0 : Fin 1) k)) (x12 (ix2 (0 : Fin 1) (0 : Fin 1))) :=
  stored x9 x10 x11 x12 _ p z _ (hidden x0 x1 x2 x3 x4 x5 x6 x7 x8 p)

end Cert.Mlp.Kernel

end
-- ==== Proof.RefRow.lean ====
/-
  The reference, read one row at a time.

  The reference applies each layer to the whole array of 131072 rows: a matrix product with the layer's weights (for the
  third, fourth and fifth layer the weights multiplied entry by entry by a fixed block-diagonal mask of zeros and ones),
  the bias row repeated down the array, the sine; then the product with the read-out column and the one read-out bias.
  An entry `(r, c)` of a matrix product depends only on row `r` of the left factor, so each layer's entry `(r, c)` is the
  specification's layer applied to row `r` of the layer before, and the result's entry `(r, ·)` is the specification's
  network on row `r` of the input. The masked weights are carried as they are: nothing here needs to know which entries
  the mask keeps.
-/
import Idealize.ShloMosaic.Lib.ValueIdx
import proofs.«100286_j70789650973458_2_alg».proof.Proof.Gen.ReferenceIdeal.Read
import proofs.«100286_j70789650973458_2_alg».proof.Proof.Spec
import proofs.«100286_j70789650973458_2_alg».proof.Proof.LibIndexLayout

noncomputable section

open scoped BigOperators

namespace Cert.Mlp

open Idealize.ShloMosaic Idealize.ShloMosaic.ValueIdx Cert.Lib.IndexLayout

namespace Ref

open Cert.ReferenceIdeal Cert.ReferenceIdeal.Read

variable (x0 : (⟨S131072x3, .f32⟩ : BufTy).Contents (Elt Ideal)) (x1 : (⟨S3x64, .f32⟩ : BufTy).Contents (Elt Ideal))
  (x2 : (⟨S1x64, .f32⟩ : BufTy).Contents (Elt Ideal)) (x3 : (⟨S64x128, .f32⟩ : BufTy).Contents (Elt Ideal))
  (x4 : (⟨S1x128, .f32⟩ : BufTy).Contents (Elt Ideal)) (x5 : (⟨S128x256, .f32⟩ : BufTy).Contents (Elt Ideal))
  (x6 : (⟨S1x256, .f32⟩ : BufTy).Contents (Elt Ideal)) (x7 : (⟨S256x512, .f32⟩ : BufTy).Contents (Elt Ideal))
  (x8 : (⟨S1x512, .f32⟩ : BufTy).Contents (Elt Ideal)) (x9 : (⟨S512x1024, .f32⟩ : BufTy).Contents (Elt Ideal))
  (x10 : (⟨S1x1024, .f32⟩ : BufTy).Contents (Elt Ideal)) (x11 : (⟨S1024x1, .f32⟩ : BufTy).Contents (Elt Ideal))
  (x12 : (⟨S1x1, .f32⟩ : BufTy).Contents (Elt Ideal))

/-- The first layer's entry `(r, c)`: the layer on row `r` of the input. -/
theorem layer0 (r : Fin 131072) (c : Fin 64) :
    val_main_v27 (F := Ideal) x0 x1 x2 (ix2 r c)
      = layer (fun j => x0 (ix2 r j)) (fun k c => x1 (ix2 k c)) (fun c => x2 (ix2 (0 : Fin 1) c)) c := by
  rw [val_main_v27_apply, val_main_v26_apply, val_main_v24_apply, val_main_v25_apply]
  have e1 : ∀ k, lidx_main_v24 (ix2 r c) k = ix2 r k := fun k => ix2_ext _ _ _ rfl rfl
  have e2 : ∀ k, ridx_main_v24 (ix2 r c) k = ix2 k c := fun k => ix2_ext _ _ _ rfl rfl
  have e3 : idx_main_v25 (ix2 r c) = ix2 (0 : Fin 1) c := ix2_ext _ _ _ rfl rfl
  simp only [e1, e2, e3]
  rfl

/-- The second layer's entry `(r, c)`: the layer on row `r` of the first layer (`h` names that row). -/
theorem layer1 (r : Fin 131072) (c : Fin 128) (h : Fin 64 → EReal)
    (hprev : ∀ k, val_main_v27 (F := Ideal) x0 x1 x2 (ix2 r k) = h k) :
    val_main_v31 (F := Ideal) x0 x1 x2 x3 x4 (ix2 r c)
      = layer h (fun k c => x3 (ix2 k c)) (fun c => x4 (ix2 (0 : Fin 1) c)) c := by
  rw [val_main_v31_apply, val_main_v30_apply, val_main_v28_apply, val_main_v29_apply]
  have e1 : ∀ k, lidx_main_v28 (ix2 r c) k = ix2 r k := fun k => ix2_ext _ _ _ rfl rfl
  have e2 : ∀ k, ridx_main_v28 (ix2 r c) k = ix2 k c := fun k => ix2_ext _ _ _ rfl rfl
  have e3 : idx_main_v29 (ix2 r c) = ix2 (0 : Fin 1) c := ix2_ext _ _ _ rfl rfl
  simp only [e1, e2, e3, hprev]
  rfl

/-- The third layer's entry `(r, c)`, with the masked weights as the reference computes them. -/
theorem layer2 (r : Fin 131072) (c : Fin 256) (h : Fin 128 → EReal)
    (hprev : ∀ k, val_main_v31 (F := Ideal) x0 x1 x2 x3 x4 (ix2 r k) = h k) :
    val_main_v36 (F := Ideal) x0 x1 x2 x3 x4 x5 x6 (ix2 r c)
      = layer h (fun k c => val_main_v32 (F := Ideal) x5 (ix2 k c)) (fun c => x6 (ix2 (0 : Fin 1) c)) c := by
  rw [val_main_v36_apply, val_main_v35_apply, val_main_v33_apply, val_main_v34_apply]
  have e1 : ∀ k, lidx_main_v33 (ix2 r c) k = ix2 r k := fun k => ix2_ext _ _ _ rfl rfl
  have e2 : ∀ k, ridx_main_v33 (ix2 r c) k = ix2 k c := fun k => ix2_ext _ _ _ rfl rfl
  have e3 : idx_main_v34 (ix2 r c) = ix2 (0 : Fin 1) c := ix2_ext _ _ _ rfl rfl
  simp only [e1, e2, e3, hprev]
  rfl

/-- The fourth layer's entry `(r, c)`. -/
theorem layer3 (r : Fin 131072) (c : Fin 512) (h : Fin 256 → EReal)
    (hprev : ∀ k, val_main_v36 (F := Ideal) x0 x1 x2 x3 x4 x5 x6 (ix2 r k) = h k) :
    val_main_v41 (F := Ideal) x0 x1 x2 x3 x4 x5 x6 x7 x8 (ix2 r c)
      = layer h (fun k c => val_main_v37 (F := Ideal) x7 (ix2 k c)) (fun c => x8 (ix2 (0 : Fin 1) c)) c := by
  rw [val_main_v41_apply, val_main_v40_apply, val_main_v38_apply, val_main_v39_apply]
  have e1 : ∀ k, lidx_main_v38 (ix2 r c) k = ix2 r k := fun k => ix2_ext _ _ _ rfl rfl
  have e2 : ∀ k, ridx_main_v38 (ix2 r c) k = ix2 k c := fun k => ix2_ext _ _ _ rfl rfl
  have e3 : idx_main_v39 (ix2 r c) = ix2 (0 : Fin 1) c := ix2_ext _ _ _ rfl rfl
  simp only [e1, e2, e3, hprev]
  rfl

/-- The fifth layer's entry `(r, c)`. -/
theorem layer4 (r : Fin 131072) (c : Fin 1024) (h : Fin 512 → EReal)
    (hprev : ∀ k, val_main_v41 (F := Ideal) x0 x1 x2 x3 x4 x5 x6 x7 x8 (ix2 r k) = h k) :
    val_main_v46 (F := Ideal) x0 x1 x2 x3 x4 x5 x6 x7 x8 x9 x10 (ix2 r c)
      = layer h (fun k c => val_main_v42 (F := Ideal) x9 (ix2 k c)) (fun c => x10 (ix2 (0 : Fin 1) c)) c := by
  rw [val_main_v46_apply, val_main_v45_apply, val_main_v43_apply, val_main_v44_apply]
  have e1 : ∀ k, lidx_main_v43 (ix2 r c) k = ix2 r k := fun k => ix2_ext _ _ _ rfl rfl
  have e2 : ∀ k, ridx_main_v43 (ix2 r c) k = ix2 k c := fun k => ix2_ext _ _ _ rfl rfl
  have e3 : idx_main_v44 (ix2 r c) = ix2 (0 : Fin 1) c := ix2_ext _ _ _ rfl rfl
  simp only [e1, e2, e3, hprev]
  rfl

/-- The result's entry `(r, ·)`: the read-out of row `r` of the fifth layer. -/
theorem out (r : Fin 131072) (z : Fin 1) (h : Fin 1024 → EReal)
    (hprev : ∀ k, val_main_v46 (F := Ideal) x0 x1 x2 x3 x4 x5 x6 x7 x8 x9 x10 (ix2 r k) = h k) :
    val_main_v49 (F := Ideal) x0 x1 x2 x3 x4 x5 x6 x7 x8 x9 x10 x11 x12 (ix2 r z)
      = readout h (fun k => x11 (ix2 k (0 : Fin 1))) (x12 (ix2 (0 : Fin 1) (0 : Fin 1))) := by
  obtain rfl : z = 0 := Subsingleton.elim _ _
  rw [val_main_v49_apply, val_main_v47_apply, val_main_v48_apply]
  have e1 : ∀ k, lidx_main_v47 (ix2 r (0 : Fin 1)) k = ix2 r k := fun k => ix2_ext _ _ _ rfl rfl
  have e2 : ∀ k, ridx_main_v47 (ix2 r (0 : Fin 1)) k = ix2 k (0 : Fin 1) := fun k => ix2_ext _ _ _ rfl rfl
  have e3 : idx_main_v48 (ix2 r (0 : Fin 1)) = ix2 (0 : Fin 1) (0 : Fin 1) := ix2_ext _ _ _ rfl rfl
  simp only [e1, e2, e3, hprev]
  rfl

/-- THE REFERENCE'S RESULT at `(r, ·)` is the network of the specification on row `r` of the input, with the
    reference's own masked weights in the third, fourth and fifth layer. -/
theorem row (r : Fin 131072) (z : Fin 1) :
    val_main_v49 (F := Ideal) x0 x1 x2 x3 x4 x5 x6 x7 x8 x9 x10 x11 x12 (ix2 r z)
      = rowOut (fun j => x0 (ix2 r j))
          (fun k c => x1 (ix2 k c)) (fun c => x2 (ix2 (0 : Fin 1) c))
          (fun k c => x3 (ix2 k c)) (fun c => x4 (ix2 (0 : Fin 1) c))
          (fun k c => val_main_v32 (F := Ideal) x5 (ix2 k c)) (fun c => x6 (ix2 (0 : Fin 1) c))
          (fun k c => val_main_v37 (F := Ideal) x7 (ix2 k c)) (fun c => x8 (ix2 (0 : Fin 1) c))
          (fun k c => val_main_v42 (F := Ideal) x9 (ix2 k c)) (fun c => x10 (ix2 (0 : Fin 1) c))
          (fun k => x11 (ix2 k (0 : Fin 1))) (x12 (ix2 (0 : Fin 1) (0 : Fin 1))) :=
  out x0 x1 x2 x3 x4 x5 x6 x7 x8 x9 x10 x11 x12 r z _ fun k4 =>
    layer4 x0 x1 x2 x3 x4 x5 x6 x7 x8 x9 x10 r k4 _ fun k3 =>
      layer3 x0 x1 x2 x3 x4 x5 x6 x7 x8 r k3 _ fun k2 =>
        layer2 x0 x1 x2 x3 x4 x5 x6 r k2 _ fun k1 =>
          layer1 x0 x1 x2 x3 x4 r k1 _ fun k0 => layer0 x0 x1 x2 r k0

end Ref

end Cert.Mlp

end
-- ==== Proof.Point.lean ====
/-
  One stored entry against one entry of the reference's result.

  The kernel's stored column at `(p, ·)` and the reference's result at `(r, ·)` are the same network applied to a row:
  row `p` of the loaded input block on one side, row `r` of the input on the other. They are equal as soon as those two
  rows are the same row of the input and the loaded weight and bias blocks hold, entry by entry, what the reference uses —
  the first two weight arrays themselves, the reference's masked third, fourth and fifth weight arrays, the biases, and
  the read-out column, which the kernel holds re-laid as a row (entry `(0, k)` of the row is entry `(k, 0)` of the
  column: both are the `k`-th in row-major order).
-/
import Idealize.ShloMosaic.Lib.Pipeline.Value
import proofs.«100286_j70789650973458_2_alg».proof.Proof.KernelRow
import proofs.«100286_j70789650973458_2_alg».proof.Proof.RefRow
import proofs.«100286_j70789650973458_2_alg».proof.Proof.LibIndexLayout

noncomputable section

namespace Cert.Mlp

open Idealize.ShloMosaic Idealize.ShloMosaic.ValueIdx Cert.Lib.IndexLayout

/-- The stored entry `(p, ·)` is the reference's entry `(r, ·)`, when row `p` of the input block is row `r` of the
    input and the weight and bias blocks hold the reference's weights and biases. -/
theorem point (x0 : Vec Ideal Cert.KernelIdeal.S2048x3 .f32) (x1 : Vec Ideal Cert.KernelIdeal.S3x64 .bf16) (x2 : Vec Ideal Cert.KernelIdeal.S1x64 .f32) (x3 : Vec Ideal Cert.KernelIdeal.S64x128 .bf16) (x4 : Vec Ideal Cert.KernelIdeal.S1x128 .f32) (x5 : Vec Ideal Cert.KernelIdeal.S128x256 .bf16) (x6 : Vec Ideal Cert.KernelIdeal.S1x256 .f32) (x7 : Vec Ideal Cert.KernelIdeal.S256x512 .bf16) (x8 : Vec Ideal Cert.KernelIdeal.S1x512 .f32) (x9 : Vec Ideal Cert.KernelIdeal.S512x1024 .bf16) (x10 : Vec Ideal Cert.KernelIdeal.S1x1024 .f32) (x11 : Vec Ideal Cert.KernelIdeal.S1x1024 .f32) (x12 : Vec Ideal Cert.KernelIdeal.S1x1 .f32)
    (a0 : (⟨Cert.ReferenceIdeal.S131072x3, .f32⟩ : BufTy).Contents (Elt Ideal)) (a1 : (⟨Cert.ReferenceIdeal.S3x64, .f32⟩ : BufTy).Contents (Elt Ideal)) (a2 : (⟨Cert.ReferenceIdeal.S1x64, .f32⟩ : BufTy).Contents (Elt Ideal)) (a3 : (⟨Cert.ReferenceIdeal.S64x128, .f32⟩ : BufTy).Contents (Elt Ideal)) (a4 : (⟨Cert.ReferenceIdeal.S1x128, .f32⟩ : BufTy).Contents (Elt Ideal)) (a5 : (⟨Cert.ReferenceIdeal.S128x256, .f32⟩ : BufTy).Contents (Elt Ideal)) (a6 : (⟨Cert.ReferenceIdeal.S1x256, .f32⟩ : BufTy).Contents (Elt Ideal)) (a7 : (⟨Cert.ReferenceIdeal.S256x512, .f32⟩ : BufTy).Contents (Elt Ideal)) (a8 : (⟨Cert.ReferenceIdeal.S1x512, .f32⟩ : BufTy).Contents (Elt Ideal)) (a9 : (⟨Cert.ReferenceIdeal.S512x1024, .f32⟩ : BufTy).Contents (Elt Ideal)) (a10 : (⟨Cert.ReferenceIdeal.S1x1024, .f32⟩ : BufTy).Contents (Elt Ideal)) (a11 : (⟨Cert.ReferenceIdeal.S1024x1, .f32⟩ : BufTy).Contents (Elt Ideal)) (a12 : (⟨Cert.ReferenceIdeal.S1x1, .f32⟩ : BufTy).Contents (Elt Ideal))
    (p : Fin 2048) (z : Fin 1) (r : Fin 131072)
    (h0 : ∀ j : Fin 3, x0 (ix2 p j) = a0 (ix2 r j))
    (h1 : ∀ (k : Fin 3) (c : Fin 64), x1 (ix2 k c) = a1 (ix2 k c))
    (h2 : ∀ c : Fin 64, x2 (ix2 (0 : Fin 1) c) = a2 (ix2 (0 : Fin 1) c))
    (h3 : ∀ (k : Fin 64) (c : Fin 128), x3 (ix2 k c) = a3 (ix2 k c))
    (h4 : ∀ c : Fin 128, x4 (ix2 (0 : Fin 1) c) = a4 (ix2 (0 : Fin 1) c))
    (h5 : ∀ (k : Fin 128) (c : Fin 256), x5 (ix2 k c) = Cert.ReferenceIdeal.Read.val_main_v32 (F := Ideal) a5 (ix2 k c))
    (h6 : ∀ c : Fin 256, x6 (ix2 (0 : Fin 1) c) = a6 (ix2 (0 : Fin 1) c))
    (h7 : ∀ (k : Fin 256) (c : Fin 512), x7 (ix2 k c) = Cert.ReferenceIdeal.Read.val_main_v37 (F := Ideal) a7 (ix2 k c))
    (h8 : ∀ c : Fin 512, x8 (ix2 (0 : Fin 1) c) = a8 (ix2 (0 : Fin 1) c))
    (h9 : ∀ (k : Fin 512) (c : Fin 1024), x9 (ix2 k c) = Cert.ReferenceIdeal.Read.val_main_v42 (F := Ideal) a9 (ix2 k c))
    (h10 : ∀ c : Fin 1024, x10 (ix2 (0 : Fin 1) c) = a10 (ix2 (0 : Fin 1) c))
    (h11 : ∀ k : Fin 1024, x11 (ix2 (0 : Fin 1) k) = a11 (ix2 k (0 : Fin 1)))
    (h12 : x12 (ix2 (0 : Fin 1) (0 : Fin 1)) = a12 (ix2 (0 : Fin 1) (0 : Fin 1))) :
    Cert.KernelIdeal.Gen.k0_pay1 (F := Ideal) (Cert.KernelIdeal.Gen.k0_pay2 (F := Ideal) x0 x1 x2 x3 x4 x5 x6 x7 x8) x9 x10 x11 x12 (ix2 p z)
      = Cert.ReferenceIdeal.Read.val_main_v49 (F := Ideal) a0 a1 a2 a3 a4 a5 a6 a7 a8 a9 a10 a11 a12 (ix2 r z) := by
  rw [Kernel.row, Ref.row]
  simp only [h0, h1, h2, h3, h4, h5, h6, h7, h8, h9, h10, h11, h12]

/-- The same over arbitrary indices `y` of the block and `i` of the array, the rows matched through the block's position
    `tv` in the array: array row `tv * 2048 + p` is block row `p`. -/
theorem point_at (x0 : Vec Ideal Cert.KernelIdeal.S2048x3 .f32) (x1 : Vec Ideal Cert.KernelIdeal.S3x64 .bf16) (x2 : Vec Ideal Cert.KernelIdeal.S1x64 .f32) (x3 : Vec Ideal Cert.KernelIdeal.S64x128 .bf16) (x4 : Vec Ideal Cert.KernelIdeal.S1x128 .f32) (x5 : Vec Ideal Cert.KernelIdeal.S128x256 .bf16) (x6 : Vec Ideal Cert.KernelIdeal.S1x256 .f32) (x7 : Vec Ideal Cert.KernelIdeal.S256x512 .bf16) (x8 : Vec Ideal Cert.KernelIdeal.S1x512 .f32) (x9 : Vec Ideal Cert.KernelIdeal.S512x1024 .bf16) (x10 : Vec Ideal Cert.KernelIdeal.S1x1024 .f32) (x11 : Vec Ideal Cert.KernelIdeal.S1x1024 .f32) (x12 : Vec Ideal Cert.KernelIdeal.S1x1 .f32)
    (a0 : (⟨Cert.ReferenceIdeal.S131072x3, .f32⟩ : BufTy).Contents (Elt Ideal)) (a1 : (⟨Cert.ReferenceIdeal.S3x64, .f32⟩ : BufTy).Contents (Elt Ideal)) (a2 : (⟨Cert.ReferenceIdeal.S1x64, .f32⟩ : BufTy).Contents (Elt Ideal)) (a3 : (⟨Cert.ReferenceIdeal.S64x128, .f32⟩ : BufTy).Contents (Elt Ideal)) (a4 : (⟨Cert.ReferenceIdeal.S1x128, .f32⟩ : BufTy).Contents (Elt Ideal)) (a5 : (⟨Cert.ReferenceIdeal.S128x256, .f32⟩ : BufTy).Contents (Elt Ideal)) (a6 : (⟨Cert.ReferenceIdeal.S1x256, .f32⟩ : BufTy).Contents (Elt Ideal)) (a7 : (⟨Cert.ReferenceIdeal.S256x512, .f32⟩ : BufTy).Contents (Elt Ideal)) (a8 : (⟨Cert.ReferenceIdeal.S1x512, .f32⟩ : BufTy).Contents (Elt Ideal)) (a9 : (⟨Cert.ReferenceIdeal.S512x1024, .f32⟩ : BufTy).Contents (Elt Ideal)) (a10 : (⟨Cert.ReferenceIdeal.S1x1024, .f32⟩ : BufTy).Contents (Elt Ideal)) (a11 : (⟨Cert.ReferenceIdeal.S1024x1, .f32⟩ : BufTy).Contents (Elt Ideal)) (a12 : (⟨Cert.ReferenceIdeal.S1x1, .f32⟩ : BufTy).Contents (Elt Ideal))
    (hsc : (⟨2, ![1024, 1]⟩ : Shape).ShapeCasts ⟨2, ![1, 1024]⟩)
    (tv : Nat) (y : Cert.KernelIdeal.S2048x1.Idx) (i : Cert.ReferenceIdeal.S131072x1.Idx) (hi : (i 0).val = tv * 2048 + (y 0).val)
    (h0 : ∀ (x : Cert.KernelIdeal.S2048x3.Idx) (k : Cert.ReferenceIdeal.S131072x3.Idx), (k 0).val = tv * 2048 + (x 0).val → (k 1).val = (x 1).val → x0 x = a0 k)
    (h1 : ∀ x, x1 x = a1 x)
    (h2 : ∀ x, x2 x = a2 x)
    (h3 : ∀ x, x3 x = a3 x)
    (h4 : ∀ x, x4 x = a4 x)
    (h5 : ∀ x, x5 x = Cert.ReferenceIdeal.Read.val_main_v32 (F := Ideal) a5 x)
    (h6 : ∀ x, x6 x = a6 x)
    (h7 : ∀ x, x7 x = Cert.ReferenceIdeal.Read.val_main_v37 (F := Ideal) a7 x)
    (h8 : ∀ x, x8 x = a8 x)
    (h9 : ∀ x, x9 x = Cert.ReferenceIdeal.Read.val_main_v42 (F := Ideal) a9 x)
    (h10 : ∀ x, x10 x = a10 x)
    (h11 : ∀ x, x11 x = shapeCast ⟨2, ![1, 1024]⟩ a11 hsc x)
    (h12 : ∀ x, x12 x = a12 x) :
    Cert.KernelIdeal.Gen.k0_pay1 (F := Ideal) (Cert.KernelIdeal.Gen.k0_pay2 (F := Ideal) x0 x1 x2 x3 x4 x5 x6 x7 x8) x9 x10 x11 x12 y
      = Cert.ReferenceIdeal.Read.val_main_v49 (F := Ideal) a0 a1 a2 a3 a4 a5 a6 a7 a8 a9 a10 a11 a12 i := by
  obtain ⟨p, z, rfl⟩ : ∃ (p : Fin 2048) (z : Fin 1), y = ix2 p z := ⟨y 0, y 1, eq_ix2 y⟩
  obtain ⟨r, z', rfl⟩ : ∃ (r : Fin 131072) (z' : Fin 1), i = ix2 r z' := ⟨i 0, i 1, eq_ix2 i⟩
  obtain rfl : z = z' := Subsingleton.elim _ _
  have hr : r.val = tv * 2048 + p.val := hi
  exact point x0 x1 x2 x3 x4 x5 x6 x7 x8 x9 x10 x11 x12 a0 a1 a2 a3 a4 a5 a6 a7 a8 a9 a10 a11 a12 p z r
    (fun j => h0 _ _ hr rfl)
    (fun k c => h1 _)
    (fun c => h2 _)
    (fun k c => h3 _)
    (fun c => h4 _)
    (fun k c => h5 _)
    (fun c => h6 _)
    (fun k c => h7 _)
    (fun c => h8 _)
    (fun k c => h9 _)
    (fun c => h10 _)
    (fun k => (h11 _).trans (shapeCast_a1_1a_apply a11 hsc k))
    (h12 _)

end Cert.Mlp

end
-- ==== Proof.Blocks.lean ====
/-
  From the blocks the kernel writes back to the whole result array.

  The grid has 64 points. At point `t` the input window's block is rows `2048 t … 2048 t + 2047` of the input, every
  weight and bias window's block is its whole array, and the output window's block is rows `2048 t … 2048 t + 2047` of
  the result. So what point `t` writes back is, entry by entry, the reference's result on those rows; the 64 blocks
  cover the 131072 rows (row `r` lies in the block of point `r / 2048`), hence after the run the result array is the
  reference's result of the argument arrays.
-/
import Idealize.ShloMosaic.Lib.Pipeline.Value
import proofs.«100286_j70789650973458_2_alg».proof.Proof.Gen.KernelIdeal.Value
import proofs.«100286_j70789650973458_2_alg».proof.Proof.Windows
import proofs.«100286_j70789650973458_2_alg».proof.Proof.Point

noncomputable section

namespace Cert.Mlp.Blocks

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block indices at point `t`, decided over the 64 points: the input and the output window sit at block row `t`,
    every other window at block `(0, 0)`. -/
theorem idx_facts : ∀ t : Fin cfg0.N, win0_0.index t (0 : Fin 2) = t.val
    ∧ win0_0.index t (1 : Fin 2) = 0
    ∧ win0_13.index t (0 : Fin 2) = t.val
    ∧ win0_13.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0 :=
  (by decide +kernel : ∀ t : Fin grid0.N, _)

/-- The input window's block at point `t` is rows `2048 t … 2048 t + 2047` of the input argument. -/
theorem iblk0_apply (c : Dev nD) (t : Fin cfg0.N) (x : S2048x3.Idx) (k : S131072x3.Idx)
    (hk0 : (k 0).val = t.val * 2048 + (x 0).val) (hk1 : (k 1).val = (x 1).val) :
    (iblk m c 0 t : Vec Ideal S2048x3 .f32) x = (m ((c : Thread nD τ).loc main_arg0) : S131072x3.Idx → Elt Ideal .f32) k := by
  obtain ⟨e0_0, e0_1, e13_0, e13_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  have hemb : ((cfg0.win 0).blk t).view.emb x = (k : S131072x3.Idx) := by
    funext a
    apply Fin.ext
    match a with
    | ⟨0, _⟩ => show win0_0.index t (0 : Fin 2) * 2048 + 1 * (x 0).val = (k 0).val; rw [e0_0, hk0]; omega
    | ⟨1, _⟩ => show win0_0.index t (1 : Fin 2) * 3 + 1 * (x 1).val = (k 1).val; rw [e0_1, hk1]; omega
  unfold iblk
  rw [View.read_apply]
  exact (congrArg (V m c main_arg0 : S131072x3.Idx → Elt Ideal .f32) hemb).trans (congrFun (V_main_arg0 m c) k)

/-- Window 1's block at any point is its whole array: the block's index is zero on both axes. -/
theorem iblk1_apply (c : Dev nD) (t : Fin cfg0.N) (x : S3x64.Idx) :
    (iblk m c 1 t : Vec Ideal S3x64 .bf16) x = (V m c main_v24 : S3x64.Idx → Elt Ideal .bf16) x := by
  obtain ⟨e0_0, e0_1, e13_0, e13_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  have hemb : ((cfg0.win 1).blk t).view.emb x = (x : S3x64.Idx) := by
    funext a
    apply Fin.ext
    match a with
    | ⟨0, _⟩ => show win0_1.index t (0 : Fin 2) * 3 + 1 * (x 0).val = (x 0).val; rw [e1_0]; omega
    | ⟨1, _⟩ => show win0_1.index t (1 : Fin 2) * 64 + 1 * (x 1).val = (x 1).val; rw [e1_1]; omega
  unfold iblk
  rw [View.read_apply]
  exact congrArg (V m c main_v24 : S3x64.Idx → Elt Ideal .bf16) hemb

/-- Window 2's block at any point is its whole array: the block's index is zero on both axes. -/
theorem iblk2_apply (c : Dev nD) (t : Fin cfg0.N) (x : S1x64.Idx) :
    (iblk m c 2 t : Vec Ideal S1x64 .f32) x = (V m c main_arg2 : S1x64.Idx → Elt Ideal .f32) x := by
  obtain ⟨e0_0, e0_1, e13_0, e13_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  have hemb : ((cfg0.win 2).blk t).view.emb x = (x : S1x64.Idx) := by
    funext a
    apply Fin.ext
    match a with
    | ⟨0, _⟩ => show win0_2.index t (0 : Fin 2) * 1 + 1 * (x 0).val = (x 0).val; rw [e2_0]; omega
    | ⟨1, _⟩ => show win0_2.index t (1 : Fin 2) * 64 + 1 * (x 1).val = (x 1).val; rw [e2_1]; omega
  unfold iblk
  rw [View.read_apply]
  exact congrArg (V m c main_arg2 : S1x64.Idx → Elt Ideal .f32) hemb

/-- Window 3's block at any point is its whole array: the block's index is zero on both axes. -/
theorem iblk3_apply (c : Dev nD) (t : Fin cfg0.N) (x : S64x128.Idx) :
    (iblk m c 3 t : Vec Ideal S64x128 .bf16) x = (V m c main_v25 : S64x128.Idx → Elt Ideal .bf16) x := by
  obtain ⟨e0_0, e0_1, e13_0, e13_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  have hemb : ((cfg0.win 3).blk t).view.emb x = (x : S64x128.Idx) := by
    funext a
    apply Fin.ext
    match a with
    | ⟨0, _⟩ => show win0_3.index t (0 : Fin 2) * 64 + 1 * (x 0).val = (x 0).val; rw [e3_0]; omega
    | ⟨1, _⟩ => show win0_3.index t (1 : Fin 2) * 128 + 1 * (x 1).val = (x 1).val; rw [e3_1]; omega
  unfold iblk
  rw [View.read_apply]
  exact congrArg (V m c main_v25 : S64x128.Idx → Elt Ideal .bf16) hemb

/-- Window 4's block at any point is its whole array: the block's index is zero on both axes. -/
theorem iblk4_apply (c : Dev nD) (t : Fin cfg0.N) (x : S1x128.Idx) :
    (iblk m c 4 t : Vec Ideal S1x128 .f32) x = (V m c main_arg4 : S1x128.Idx → Elt Ideal .f32) x := by
  obtain ⟨e0_0, e0_1, e13_0, e13_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  have hemb : ((cfg0.win 4).blk t).view.emb x = (x : S1x128.Idx) := by
    funext a
    apply Fin.ext
    match a with
    | ⟨0, _⟩ => show win0_4.index t (0 : Fin 2) * 1 + 1 * (x 0).val = (x 0).val; rw [e4_0]; omega
    | ⟨1, _⟩ => show win0_4.index t (1 : Fin 2) * 128 + 1 * (x 1).val = (x 1).val; rw [e4_1]; omega
  unfold iblk
  rw [View.read_apply]
  exact congrArg (V m c main_arg4 : S1x128.Idx → Elt Ideal .f32) hemb

/-- Window 5's block at any point is its whole array: the block's index is zero on both axes. -/
theorem iblk5_apply (c : Dev nD) (t : Fin cfg0.N) (x : S128x256.Idx) :
    (iblk m c 5 t : Vec Ideal S128x256 .bf16) x = (V m c main_v27 : S128x256.Idx → Elt Ideal .bf16) x := by
  obtain ⟨e0_0, e0_1, e13_0, e13_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  have hemb : ((cfg0.win 5).blk t).view.emb x = (x : S128x256.Idx) := by
    funext a
    apply Fin.ext
    match a with
    | ⟨0, _⟩ => show win0_5.index t (0 : Fin 2) * 128 + 1 * (x 0).val = (x 0).val; rw [e5_0]; omega
    | ⟨1, _⟩ => show win0_5.index t (1 : Fin 2) * 256 + 1 * (x 1).val = (x 1).val; rw [e5_1]; omega
  unfold iblk
  rw [View.read_apply]
  exact congrArg (V m c main_v27 : S128x256.Idx → Elt Ideal .bf16) hemb

/-- Window 6's block at any point is its whole array: the block's index is zero on both axes. -/
theorem iblk6_apply (c : Dev nD) (t : Fin cfg0.N) (x : S1x256.Idx) :
    (iblk m c 6 t : Vec Ideal S1x256 .f32) x = (V m c main_arg6 : S1x256.Idx → Elt Ideal .f32) x := by
  obtain ⟨e0_0, e0_1, e13_0, e13_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  have hemb : ((cfg0.win 6).blk t).view.emb x = (x : S1x256.Idx) := by
    funext a
    apply Fin.ext
    match a with
    | ⟨0, _⟩ => show win0_6.index t (0 : Fin 2) * 1 + 1 * (x 0).val = (x 0).val; rw [e6_0]; omega
    | ⟨1, _⟩ => show win0_6.index t (1 : Fin 2) * 256 + 1 * (x 1).val = (x 1).val; rw [e6_1]; omega
  unfold iblk
  rw [View.read_apply]
  exact congrArg (V m c main_arg6 : S1x256.Idx → Elt Ideal .f32) hemb

/-- Window 7's block at any point is its whole array: the block's index is zero on both axes. -/
theorem iblk7_apply (c : Dev nD) (t : Fin cfg0.N) (x : S256x512.Idx) :
    (iblk m c 7 t : Vec Ideal S256x512 .bf16) x = (V m c main_v29 : S256x512.Idx → Elt Ideal .bf16) x := by
  obtain ⟨e0_0, e0_1, e13_0, e13_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  have hemb : ((cfg0.win 7).blk t).view.emb x = (x : S256x512.Idx) := by
    funext a
    apply Fin.ext
    match a with
    | ⟨0, _⟩ => show win0_7.index t (0 : Fin 2) * 256 + 1 * (x 0).val = (x 0).val; rw [e7_0]; omega
    | ⟨1, _⟩ => show win0_7.index t (1 : Fin 2) * 512 + 1 * (x 1).val = (x 1).val; rw [e7_1]; omega
  unfold iblk
  rw [View.read_apply]
  exact congrArg (V m c main_v29 : S256x512.Idx → Elt Ideal .bf16) hemb

/-- Window 8's block at any point is its whole array: the block's index is zero on both axes. -/
theorem iblk8_apply (c : Dev nD) (t : Fin cfg0.N) (x : S1x512.Idx) :
    (iblk m c 8 t : Vec Ideal S1x512 .f32) x = (V m c main_arg8 : S1x512.Idx → Elt Ideal .f32) x := by
  obtain ⟨e0_0, e0_1, e13_0, e13_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  have hemb : ((cfg0.win 8).blk t).view.emb x = (x : S1x512.Idx) := by
    funext a
    apply Fin.ext
    match a with
    | ⟨0, _⟩ => show win0_8.index t (0 : Fin 2) * 1 + 1 * (x 0).val = (x 0).val; rw [e8_0]; omega
    | ⟨1, _⟩ => show win0_8.index t (1 : Fin 2) * 512 + 1 * (x 1).val = (x 1).val; rw [e8_1]; omega
  unfold iblk
  rw [View.read_apply]
  exact congrArg (V m c main_arg8 : S1x512.Idx → Elt Ideal .f32) hemb

/-- Window 9's block at any point is its whole array: the block's index is zero on both axes. -/
theorem iblk9_apply (c : Dev nD) (t : Fin cfg0.N) (x : S512x1024.Idx) :
    (iblk m c 9 t : Vec Ideal S512x1024 .bf16) x = (V m c main_v31 : S512x1024.Idx → Elt Ideal .bf16) x := by
  obtain ⟨e0_0, e0_1, e13_0, e13_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  have hemb : ((cfg0.win 9).blk t).view.emb x = (x : S512x1024.Idx) := by
    funext a
    apply Fin.ext
    match a with
    | ⟨0, _⟩ => show win0_9.index t (0 : Fin 2) * 512 + 1 * (x 0).val = (x 0).val; rw [e9_0]; omega
    | ⟨1, _⟩ => show win0_9.index t (1 : Fin 2) * 1024 + 1 * (x 1).val = (x 1).val; rw [e9_1]; omega
  unfold iblk
  rw [View.read_apply]
  exact congrArg (V m c main_v31 : S512x1024.Idx → Elt Ideal .bf16) hemb

/-- Window 10's block at any point is its whole array: the block's index is zero on both axes. -/
theorem iblk10_apply (c : Dev nD) (t : Fin cfg0.N) (x : S1x1024.Idx) :
    (iblk m c 10 t : Vec Ideal S1x1024 .f32) x = (V m c main_arg10 : S1x1024.Idx → Elt Ideal .f32) x := by
  obtain ⟨e0_0, e0_1, e13_0, e13_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  have hemb : ((cfg0.win 10).blk t).view.emb x = (x : S1x1024.Idx) := by
    funext a
    apply Fin.ext
    match a with
    | ⟨0, _⟩ => show win0_10.index t (0 : Fin 2) * 1 + 1 * (x 0).val = (x 0).val; rw [e10_0]; omega
    | ⟨1, _⟩ => show win0_10.index t (1 : Fin 2) * 1024 + 1 * (x 1).val = (x 1).val; rw [e10_1]; omega
  unfold iblk
  rw [View.read_apply]
  exact congrArg (V m c main_arg10 : S1x1024.Idx → Elt Ideal .f32) hemb

/-- Window 11's block at any point is its whole array: the block's index is zero on both axes. -/
theorem iblk11_apply (c : Dev nD) (t : Fin cfg0.N) (x : S1x1024.Idx) :
    (iblk m c 11 t : Vec Ideal S1x1024 .f32) x = (V m c main_v32 : S1x1024.Idx → Elt Ideal .f32) x := by
  obtain ⟨e0_0, e0_1, e13_0, e13_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  have hemb : ((cfg0.win 11).blk t).view.emb x = (x : S1x1024.Idx) := by
    funext a
    apply Fin.ext
    match a with
    | ⟨0, _⟩ => show win0_11.index t (0 : Fin 2) * 1 + 1 * (x 0).val = (x 0).val; rw [e11_0]; omega
    | ⟨1, _⟩ => show win0_11.index t (1 : Fin 2) * 1024 + 1 * (x 1).val = (x 1).val; rw [e11_1]; omega
  unfold iblk
  rw [View.read_apply]
  exact congrArg (V m c main_v32 : S1x1024.Idx → Elt Ideal .f32) hemb

/-- Window 12's block at any point is its whole array: the block's index is zero on both axes. -/
theorem iblk12_apply (c : Dev nD) (t : Fin cfg0.N) (x : S1x1.Idx) :
    (iblk m c 12 t : Vec Ideal S1x1 .f32) x = (V m c main_arg12 : S1x1.Idx → Elt Ideal .f32) x := by
  obtain ⟨e0_0, e0_1, e13_0, e13_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  have hemb : ((cfg0.win 12).blk t).view.emb x = (x : S1x1.Idx) := by
    funext a
    apply Fin.ext
    match a with
    | ⟨0, _⟩ => show win0_12.index t (0 : Fin 2) * 1 + 1 * (x 0).val = (x 0).val; rw [e12_0]; omega
    | ⟨1, _⟩ => show win0_12.index t (1 : Fin 2) * 1 + 1 * (x 1).val = (x 1).val; rw [e12_1]; omega
  unfold iblk
  rw [View.read_apply]
  exact congrArg (V m c main_arg12 : S1x1.Idx → Elt Ideal .f32) hemb

/-- The result array, as one function of the argument arrays: the reference's result of them. -/
abbrev G (c : Dev nD) : Buf (Elt Ideal) ((c : Thread nD τ).loc main_v33) :=
  Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- WHAT POINT `t` WRITES BACK is block `t` of `G`. -/
theorem flushed_eq (c : Dev nD) (t : Fin cfg0.N) :
    (dats m 0 c).flushed 13 t = ((cfg0.win 13).blk t).view.read (Elt Ideal) (G m c) := by
  rw [Cert.KernelIdeal.Value.flushed13]
  unfold out0_13
  rw [View.canon_unit_zero hz]
  simp only [View.ld_unit_zero (S := S2048x3) hz, View.ld_unit_zero (S := S3x64) hz, View.ld_unit_zero (S := S1x64) hz, View.ld_unit_zero (S := S64x128) hz, View.ld_unit_zero (S := S1x128) hz, View.ld_unit_zero (S := S128x256) hz, View.ld_unit_zero (S := S1x256) hz, View.ld_unit_zero (S := S256x512) hz, View.ld_unit_zero (S := S1x512) hz, View.ld_unit_zero (S := S512x1024) hz, View.ld_unit_zero (S := S1x1024) hz, View.ld_unit_zero (S := S1x1) hz]
  obtain ⟨e0_0, e0_1, e13_0, e13_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  funext y
  show k0_pay1 (k0_pay2 (iblk m c 0 t) (iblk m c 1 t) (iblk m c 2 t) (iblk m c 3 t) (iblk m c 4 t) (iblk m c 5 t) (iblk m c 6 t) (iblk m c 7 t) (iblk m c 8 t)) (iblk m c 9 t) (iblk m c 10 t) (iblk m c 11 t) (iblk m c 12 t) y
    = G m c (((cfg0.win 13).blk t).view.emb y)
  refine point_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    shapeCasts_S1024x1_S1x1024 t.val y _ ?_
    (fun x k hk0 hk1 => iblk0_apply m c t x k hk0 hk1)
    (fun x => (iblk1_apply m c t x).trans (congrFun (Win.V_w0 m c) x))
    (fun x => (iblk2_apply m c t x).trans (congrFun (V_main_arg2 m c) x))
    (fun x => (iblk3_apply m c t x).trans (congrFun (Win.V_w1 m c) x))
    (fun x => (iblk4_apply m c t x).trans (congrFun (V_main_arg4 m c) x))
    (fun x => (iblk5_apply m c t x).trans (congrFun (Win.V_w2 m c) x))
    (fun x => (iblk6_apply m c t x).trans (congrFun (V_main_arg6 m c) x))
    (fun x => (iblk7_apply m c t x).trans (congrFun (Win.V_w3 m c) x))
    (fun x => (iblk8_apply m c t x).trans (congrFun (V_main_arg8 m c) x))
    (fun x => (iblk9_apply m c t x).trans (congrFun (Win.V_w4 m c) x))
    (fun x => (iblk10_apply m c t x).trans (congrFun (V_main_arg10 m c) x))
    (fun x => (iblk11_apply m c t x).trans (congrFun (Win.V_w5 m c) x))
    (fun x => (iblk12_apply m c t x).trans (congrFun (V_main_arg12 m c) x))
  show win0_13.index t (0 : Fin 2) * 2048 + 1 * (y 0).val = t.val * 2048 + (y 0).val
  rw [e13_0]
  omega

/-- An index of the result array is in point `t`'s block iff each coordinate is in the block's range on its axis. -/
theorem mem_blk (t : Fin cfg0.N) (i : S131072x1.Idx) :
    i ∈ ((cfg0.win 13).blk t).view.set ↔ ∀ a : Fin 2, win0_13.index t a * S2048x1.size a ≤ (i a).val ∧ (i a).val < win0_13.index t a * S2048x1.size a + S2048x1.size a := by
  show i ∈ ((View.whole main_v33).slice (win0_13.rect t)).set ↔ _
  rw [View.set_slice_whole, Rect.mem_set_unit]
  exact Iff.rfl

/-- Every row of the result lies in the block of the point `row / 2048`. -/
theorem cover (i : S131072x1.Idx) :
    ∃ t : Fin cfg0.N, (cfg0.win 13).flush t = true ∧ i ∈ ((cfg0.win 13).blk t).view.set := by
  have hN : cfg0.N = 64 := N_0
  have hi0 : (i 0).val < 131072 := (i 0).isLt
  have hi1 : (i 1).val < 1 := (i 1).isLt
  have ht : (i 0).val / 2048 < cfg0.N := by rw [hN]; omega
  obtain ⟨e0_0, e0_1, e13_0, e13_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts ⟨(i 0).val / 2048, ht⟩
  refine ⟨⟨(i 0).val / 2048, ht⟩, flush0_13 _, ?_⟩
  rw [mem_blk]
  intro a
  match a with
  | ⟨0, _⟩ =>
    show win0_13.index ⟨(i 0).val / 2048, ht⟩ (0 : Fin 2) * 2048 ≤ (i 0).val ∧ (i 0).val < win0_13.index ⟨(i 0).val / 2048, ht⟩ (0 : Fin 2) * 2048 + 2048
    rw [e13_0]
    show (i 0).val / 2048 * 2048 ≤ (i 0).val ∧ (i 0).val < (i 0).val / 2048 * 2048 + 2048
    omega
  | ⟨1, _⟩ =>
    show win0_13.index ⟨(i 0).val / 2048, ht⟩ (1 : Fin 2) * 1 ≤ (i 1).val ∧ (i 1).val < win0_13.index ⟨(i 0).val / 2048, ht⟩ (1 : Fin 2) * 1 + 1
    rw [e13_1]
    omega

/-- THE RESULT ARRAY after the run is `G` of the argument arrays. -/
theorem final (c : Dev nD) : (dats m 0 c).arrAt 13 cfg0.N = G m c :=
  (dats m 0 c).arrAt_eq_of_cover 13 (G m c) (fun t _ => flushed_eq m c t) (cover)

/-- The kernel's run, read: the result array at the reference's result of the argument arrays, the arguments unchanged. -/
theorem run : θ_run defs (onTc (τ := τ) (main (F := Ideal))) ⟨m, fun _ => 0, ρ⟩ fun r => ∀ c : Dev nD,
      r.2.mem ((c : Thread nD τ).loc main_v33) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩)
    (Cert.KernelIdeal.Value.run_blocks m ρ)

end Cert.Mlp.Blocks

end
-- ==== Proof.lean ====
/-
  A fused multilayer perceptron against its layer-by-layer definition, on the extended reals.

  Both programs map 131072 input rows of width 3 through five dense layers with a sine activation (widths 64, 128, 256,
  512, 1024; the third, fourth and fifth weight arrays first multiplied entry by entry by a fixed block-diagonal mask of
  zeros and ones) and a linear read-out to one number per row. The reference does this with whole-array matrix products.
  The kernel walks the rows in 64 blocks of 2048, keeps the weights resident, narrows each layer's result to a shorter
  float format before the next product, and computes the read-out as a product with the read-out weights laid out as a
  row followed by a sum over each row's lanes.

  On the extended reals a change of float format is the identity, a matrix product into a zero accumulator and the
  host's product are the same finite sum of products, and a sum over lanes is a finite sum; the mask is computed by the
  same operations in both programs. So the two results agree entry by entry: each entry `(r, ·)` is one and the same
  network applied to row `r` of the input (Proof/Spec.lean). Only commutativity and associativity of finite sums are
  used, so the finiteness of the inputs is never needed for the values.

  Proof/KernelRow.lean reads the kernel's stored column one row at a time, Proof/RefRow.lean the reference's result,
  Proof/Point.lean sets one stored entry against one entry of the reference's result, Proof/Windows.lean says what the
  weight windows hold when the kernel starts, and Proof/Blocks.lean goes from the 64 written blocks to the whole array.
  The three programs' runs (termination, no fault, arguments unchanged) are cited from the modules under Proof/Gen/.
-/
import proofs.«100286_j70789650973458_2_alg».proof.Defs
import proofs.«100286_j70789650973458_2_alg».proof.Proof.Gen.Kernel
import proofs.«100286_j70789650973458_2_alg».proof.Proof.Gen.Kernel.Skeleton
import proofs.«100286_j70789650973458_2_alg».proof.Proof.Gen.Kernel.Launch
import proofs.«100286_j70789650973458_2_alg».proof.Proof.Gen.Kernel.Points
import proofs.«100286_j70789650973458_2_alg».proof.Proof.Gen.Kernel.Frame
import proofs.«100286_j70789650973458_2_alg».proof.Proof.Gen.KernelIdeal
import proofs.«100286_j70789650973458_2_alg».proof.Proof.Gen.KernelIdeal.Skeleton
import proofs.«100286_j70789650973458_2_alg».proof.Proof.Gen.KernelIdeal.Launch
import proofs.«100286_j70789650973458_2_alg».proof.Proof.Gen.KernelIdeal.Points
import proofs.«100286_j70789650973458_2_alg».proof.Proof.Gen.KernelIdeal.Frame
import proofs.«100286_j70789650973458_2_alg».proof.Proof.Gen.ReferenceIdeal
import proofs.«100286_j70789650973458_2_alg».proof.Proof.Gen.Pre_finite_inputs
import proofs.«100286_j70789650973458_2_alg».proof.Proof.Gen.KernelIdeal.Value
import proofs.«100286_j70789650973458_2_alg».proof.Proof.Gen.ReferenceIdeal.Run
import proofs.«100286_j70789650973458_2_alg».proof.Proof.Gen.ReferenceIdeal.Read
import proofs.«100286_j70789650973458_2_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read on the extended reals. -/
theorem preserves : Cert.preserves_Kernel_KernelIdeal := trivial

/-- From memories that agree on the arguments, the kernel's result array ends at the reference's result of the
    argument arrays (Proof/Blocks.lean), which is what the reference's own run ends at. -/
theorem algebraic : Cert.algebraic_KernelIdeal_ReferenceIdeal := by
  intro m ρ m' ρ' _ hagree
  refine ⟨fun c => Cert.Mlp.Blocks.G m c, Cert.Mlp.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  rw [e0, e1, e2, e3, e4, e5, e6, e7, e8, e9, e10, e11, e12]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
